-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S64x64 .f32) (main_arg10 : FVec F S64x64 .f32) (main_arg11 : FVec F S64 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg6 : FVec F S64x64 .f32) (main_arg7 : FVec F S64x64 .f32) (main_arg8 : FVec F S64 .f32) (main_arg9 : FVec F S64x64 .f32) (main_arg10 : FVec F S64x64 .f32) (main_arg11 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_v33

def fn {F : FTy → Type} [FloatOps F] (main_arg0 : FVec F S100000x64 .f32) (main_arg1 : IVec S1600000 32) (main_arg2 : IVec S1600000 32) (main_arg3 : FVec F S64x64 .f32) (main_arg4 : FVec F S64x64 .f32) (main_arg5 : FVec F S64 .f32) (main_arg6 : FVec F S64x64 .f32) (main_arg7 : FVec F S64x64 .f32) (main_arg8 : FVec F S64 .f32) (main_arg9 : FVec F S64x64 .f32) (main_arg10 : FVec F S64x64 .f32) (main_arg11 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_v13 main_v16
-- ==== Kernel.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S5000x64 : Shape := ⟨2, ![5000, 64]⟩

abbrev nBuf : Space → Nat
  | .hbm => 78
  | .vmem => 27
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64x64, .f32⟩
  | .hbm, ⟨11, _⟩ => ⟨S64, .f32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x64, .f32⟩
  | .hbm, ⟨33, _⟩ => ⟨S_, .f32⟩
  | .hbm, ⟨34, _⟩ => ⟨S100000x64, .f32⟩
  | .hbm, ⟨35, _⟩ => ⟨S1600000x1, .i32⟩
  | .hbm, ⟨36, _⟩ => ⟨S100000x64, .f32⟩
  | .hbm, ⟨37, _⟩ => ⟨S100000x1, .f32⟩
  | .hbm, ⟨38, _⟩ => ⟨S100000x64, .f32⟩
  | .hbm, ⟨39, _⟩ => ⟨S100000x64, .f32⟩
  | .hbm, ⟨40, _⟩ => ⟨S1x64, .f32⟩
  | .hbm, ⟨41, _⟩ => ⟨S100000x64, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x64, .f32⟩
  | .hbm, ⟨51, _⟩ => ⟨S_, .f32⟩
  | .hbm, ⟨52, _⟩ => ⟨S100000x64, .f32⟩
  | .hbm, ⟨53, _⟩ => ⟨S1600000x1, .i32⟩
  | .hbm, ⟨54, _⟩ => ⟨S100000x64, .f32⟩
  | .hbm, ⟨55, _⟩ => ⟨S100000x1, .f32⟩
  | .hbm, ⟨56, _⟩ => ⟨S100000x64, .f32⟩
  | .hbm, ⟨57, _⟩ => ⟨S100000x64, .f32⟩
  | .hbm, ⟨58, _⟩ => ⟨S1x64, .f32⟩
  | .hbm, ⟨59, _⟩ => ⟨S100000x64, .f32⟩
  | .hbm, ⟨60, _⟩ => ⟨S_, .i32⟩
  | .hbm, ⟨61, _⟩ => ⟨S1600000, .i32⟩
  | .hbm, ⟨62, _⟩ => ⟨S1600000, .i1⟩
  | .hbm, ⟨63, _⟩ => ⟨S_, .i32⟩
  | .hbm, ⟨64, _⟩ => ⟨S1600000, .i32⟩
  | .hbm, ⟨65, _⟩ => ⟨S1600000, .i32⟩
  | .hbm, ⟨66, _⟩ => ⟨S1600000, .i32⟩
  | .hbm, ⟨67, _⟩ => ⟨S1600000x1, .i32⟩
  | .hbm, ⟨68, _⟩ => ⟨S1600000x64, .f32⟩
  | .hbm, ⟨69, _⟩ => ⟨S_, .f32⟩
  | .hbm, ⟨70, _⟩ => ⟨S100000x64, .f32⟩
  | .hbm, ⟨71, _⟩ => ⟨S1600000x1, .i32⟩
  | .hbm, ⟨72, _⟩ => ⟨S100000x64, .f32⟩
  | .hbm, ⟨73, _⟩ => ⟨S100000x1, .f32⟩
  | .hbm, ⟨74, _⟩ => ⟨S100000x64, .f32⟩
  | .hbm, ⟨75, _⟩ => ⟨S100000x64, .f32⟩
  | .hbm, ⟨76, _⟩ => ⟨S1x64, .f32⟩
  | .hbm, ⟨77, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S64x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x64, .f32⟩
  | .local _ .vmem, ⟨23, _⟩ => ⟨S64x64, .f32⟩
  | .local _ .vmem, ⟨24, _⟩ => ⟨S1x64, .f32⟩
  | .local _ .vmem, ⟨25, _⟩ => ⟨S5000x64, .f32⟩
  | .local _ .vmem, ⟨26, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_c : Ref sig .tc := ⟨.hbm, 24, rfl⟩
abbrev main_v8 : Ref sig .tc := ⟨.hbm, 25, rfl⟩
abbrev main_v9 : Ref sig .tc := ⟨.hbm, 26, rfl⟩
abbrev main_c_3 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_4 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_5 : Ref sig .tc := ⟨.hbm, 42, rfl⟩
abbrev main_v23 : Ref sig .tc := ⟨.hbm, 43, rfl⟩
abbrev main_v24 : Ref sig .tc := ⟨.hbm, 44, rfl⟩
abbrev main_c_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_7 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_8 : Ref sig .tc := ⟨.hbm, 60, rfl⟩
abbrev main_v38 : Ref sig .tc := ⟨.hbm, 61, rfl⟩
abbrev main_v39 : Ref sig .tc := ⟨.hbm, 62, rfl⟩
abbrev main_c_9 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_10 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v22) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v37) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v51) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v52) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩

abbrev nBuf : Space → Nat
  | .hbm => 125
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64x64, .f32⟩
  | .hbm, ⟨11, _⟩ => ⟨S64, .f32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S64x64, .f32⟩
  | .hbm, ⟨38, _⟩ => ⟨S100000x64, .f32⟩
  | .hbm, ⟨39, _⟩ => ⟨S64x64, .f32⟩
  | .hbm, ⟨40, _⟩ => ⟨S100000x64, .f32⟩
  | .hbm, ⟨41, _⟩ => ⟨S100000x64, .f32⟩
  | .hbm, ⟨42, _⟩ => ⟨S1x64, .f32⟩
  | .hbm, ⟨43, _⟩ => ⟨S100000x64, .f32⟩
  | .hbm, ⟨44, _⟩ => ⟨S100000x64, .f32⟩
  | .hbm, ⟨45, _⟩ => ⟨S_, .f32⟩
  | .hbm, ⟨46, _⟩ => ⟨S100000x64, .f32⟩
  | .hbm, ⟨47, _⟩ => ⟨S100000x64, .i1⟩
  | .hbm, ⟨48, _⟩ => ⟨S_, .f32⟩
  | .hbm, ⟨49, _⟩ => ⟨S100000x64, .f32⟩
  | .hbm, ⟨50, _⟩ => ⟨S100000x64, .f32⟩
  | .hbm, ⟨51, _⟩ => ⟨S100000x64, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x64, .f32⟩
  | .hbm, ⟨61, _⟩ => ⟨S_, .f32⟩
  | .hbm, ⟨62, _⟩ => ⟨S100000x64, .f32⟩
  | .hbm, ⟨63, _⟩ => ⟨S1600000x1, .i32⟩
  | .hbm, ⟨64, _⟩ => ⟨S100000x64, .f32⟩
  | .hbm, ⟨65, _⟩ => ⟨S_, .f32⟩
  | .hbm, ⟨66, _⟩ => ⟨S1600000, .f32⟩
  | .hbm, ⟨67, _⟩ => ⟨S_, .f32⟩
  | .hbm, ⟨68, _⟩ => ⟨S100000, .f32⟩
  | .hbm, ⟨69, _⟩ => ⟨S1600000x1, .i32⟩
  | .hbm, ⟨70, _⟩ => ⟨S100000, .f32⟩
  | .hbm, ⟨71, _⟩ => ⟨S_, .f32⟩
  | .hbm, ⟨72, _⟩ => ⟨S100000, .f32⟩
  | .hbm, ⟨73, _⟩ => ⟨S100000, .f32⟩
  | .hbm, ⟨74, _⟩ => ⟨S100000x1, .f32⟩
  | .hbm, ⟨75, _⟩ => ⟨S100000x64, .f32⟩
  | .hbm, ⟨76, _⟩ => ⟨S100000x64, .f32⟩
  | .hbm, ⟨77, _⟩ => ⟨S64x64, .f32⟩
  | .hbm, ⟨78, _⟩ => ⟨S100000x64, .f32⟩
  | .hbm, ⟨79, _⟩ => ⟨S64x64, .f32⟩
  | .hbm, ⟨80, _⟩ => ⟨S100000x64, .f32⟩
  | .hbm, ⟨81, _⟩ => ⟨S100000x64, .f32⟩
  | .hbm, ⟨82, _⟩ => ⟨S1x64, .f32⟩
  | .hbm, ⟨83, _⟩ => ⟨S100000x64, .f32⟩
  | .hbm, ⟨84, _⟩ => ⟨S100000x64, .f32⟩
  | .hbm, ⟨85, _⟩ => ⟨S_, .f32⟩
  | .hbm, ⟨86, _⟩ => ⟨S100000x64, .f32⟩
  | .hbm, ⟨87, _⟩ => ⟨S100000x64, .i1⟩
  | .hbm, ⟨88, _⟩ => ⟨S_, .f32⟩
  | .hbm, ⟨89, _⟩ => ⟨S100000x64, .f32⟩
  | .hbm, ⟨90, _⟩ => ⟨S100000x64, .f32⟩
  | .hbm, ⟨91, _⟩ => ⟨S100000x64, .f32⟩
  | .hbm, ⟨92, _⟩ => ⟨S_, .i32⟩
  | .hbm, ⟨93, _⟩ => ⟨S1600000, .i32⟩
  | .hbm, ⟨94, _⟩ => ⟨S1600000, .i1⟩
  | .hbm, ⟨95, _⟩ => ⟨S_, .i32⟩
  | .hbm, ⟨96, _⟩ => ⟨S1600000, .i32⟩
  | .hbm, ⟨97, _⟩ => ⟨S1600000, .i32⟩
  | .hbm, ⟨98, _⟩ => ⟨S1600000, .i32⟩
  | .hbm, ⟨99, _⟩ => ⟨S1600000x1, .i32⟩
  | .hbm, ⟨100, _⟩ => ⟨S1600000x64, .f32⟩
  | .hbm, ⟨101, _⟩ => ⟨S_, .f32⟩
  | .hbm, ⟨102, _⟩ => ⟨S100000x64, .f32⟩
  | .hbm, ⟨103, _⟩ => ⟨S1600000x1, .i32⟩
  | .hbm, ⟨104, _⟩ => ⟨S100000x64, .f32⟩
  | .hbm, ⟨105, _⟩ => ⟨S_, .f32⟩
  | .hbm, ⟨106, _⟩ => ⟨S1600000, .f32⟩
  | .hbm, ⟨107, _⟩ => ⟨S_, .f32⟩
  | .hbm, ⟨108, _⟩ => ⟨S100000, .f32⟩
  | .hbm, ⟨109, _⟩ => ⟨S1600000x1, .i32⟩
  | .hbm, ⟨110, _⟩ => ⟨S100000, .f32⟩
  | .hbm, ⟨111, _⟩ => ⟨S_, .f32⟩
  | .hbm, ⟨112, _⟩ => ⟨S100000, .f32⟩
  | .hbm, ⟨113, _⟩ => ⟨S100000, .f32⟩
  | .hbm, ⟨114, _⟩ => ⟨S100000x1, .f32⟩
  | .hbm, ⟨115, _⟩ => ⟨S100000x64, .f32⟩
  | .hbm, ⟨116, _⟩ => ⟨S100000x64, .f32⟩
  | .hbm, ⟨117, _⟩ => ⟨S64x64, .f32⟩
  | .hbm, ⟨118, _⟩ => ⟨S100000x64, .f32⟩
  | .hbm, ⟨119, _⟩ => ⟨S64x64, .f32⟩
  | .hbm, ⟨120, _⟩ => ⟨S100000x64, .f32⟩
  | .hbm, ⟨121, _⟩ => ⟨S100000x64, .f32⟩
  | .hbm, ⟨122, _⟩ => ⟨S1x64, .f32⟩
  | .hbm, ⟨123, _⟩ => ⟨S100000x64, .f32⟩
  | .hbm, ⟨124, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_4 : Ref sig .tc := ⟨.hbm, 45, rfl⟩
abbrev main_v27 : Ref sig .tc := ⟨.hbm, 46, rfl⟩
abbrev main_v28 : Ref sig .tc := ⟨.hbm, 47, rfl⟩
abbrev main_cst_5 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_8 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_9 : Ref sig .tc := ⟨.hbm, 65, rfl⟩
abbrev main_v42 : Ref sig .tc := ⟨.hbm, 66, rfl⟩
abbrev main_cst_10 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_11 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_12 : Ref sig .tc := ⟨.hbm, 85, rfl⟩
abbrev main_v59 : Ref sig .tc := ⟨.hbm, 86, rfl⟩
abbrev main_v60 : Ref sig .tc := ⟨.hbm, 87, rfl⟩
abbrev main_cst_13 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_c_14 : Ref sig .tc := ⟨.hbm, 92, rfl⟩
abbrev main_v64 : Ref sig .tc := ⟨.hbm, 93, rfl⟩
abbrev main_v65 : Ref sig .tc := ⟨.hbm, 94, rfl⟩
abbrev main_c_15 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_16 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_17 : Ref sig .tc := ⟨.hbm, 105, rfl⟩
abbrev main_v74 : Ref sig .tc := ⟨.hbm, 106, rfl⟩
abbrev main_cst_18 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_19 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelRun.lean ====
/-
  The idealized kernel's run with its result named.

  @main of the kernel program is six segments: a stretch of host operations, a launch, a stretch, a launch, a stretch, a
  launch. The generated frame run carries, from segment to segment, what every buffer of the TensorCore holds: the launch
  memory, then a stretch's operations applied to it, then a launch's arrays at what its write-backs leave, and so on
  (`W0` … `W6`). Every weakly fair execution terminates in a state whose buffers hold the last of these, `W6`. The frame
  reads only the argument arrays off that state; read here is also the result array, so that the run's post names the
  result as `W6` at the result's buffer. What that array is, as a function of the arguments, is the next module's.
-/
import proofs.«100329_j87024627351878_1_alg».proof.Proof.KernelIdealFrameP

set_option maxRecDepth 16384

noncomputable section

namespace Cert.KernelIdeal.Run

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last boundary's
    contents `W6` and the argument arrays as launched. -/
theorem run_value : θ_run defs (onTc (τ := τ) (main (F := F))) ⟨m, fun _ => 0, ρ⟩ (fun r => ∀ c : Dev nD,
      r.2.mem ((c.tc : Thread nD τ).loc main_v52) = W6 m ρ c (Proc.devRef .tc main_v52)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v52 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c)⟩)

end Cert.KernelIdeal.Run

end
-- ==== Proof.Spec.lean ====
/-
  One GraphSAGE layer with mean aggregation, as a function on the extended reals.

  A layer takes the node features h (n rows of d numbers), the aggregated neighbour features hn (same shape), two
  d×d weight matrices and a bias row, and produces, at node r and output feature q,

      act ( Σ_k h(r, k) · Wself(q, k)  +  Σ_k hn(r, k) · Wneigh(q, k)  +  b(q) ),

  the weights entering transposed (a linear layer y = x·Wᵀ). The activation is the leaky unit
  x ↦ (x if x ≥ 0 else c·x) on the first two layers and the identity on the last; the slope c is kept as the
  float word both programs print, and is never evaluated.

  The neighbour mean divides the neighbour sum by max(deg, 1). One program multiplies by the reciprocal 1/max(deg, 1),
  the other divides by max(deg, 1): since max(deg, 1) ≥ 1 is never zero, both are the product with its inverse, on every
  extended real (`mul_recip_eq_div`).
-/
import Idealize.ShloMosaic.PureOps.Ideal.Laws
import Idealize.ShloMosaic.Lib.ValueIdx

noncomputable section

open scoped BigOperators

namespace Cert.Sage

open Idealize.ShloMosaic Idealize.ShloMosaic.ValueIdx

/-- An a×b matrix of extended reals. -/
abbrev Mat (a b : Nat) : Type := (⟨2, ![a, b]⟩ : Shape).Idx → EReal

/-- The leaky unit: x where x ≥ 0, slope·x elsewhere; zero and the slope as the printed float words. -/
def leaky (x : EReal) : EReal :=
  Scalar.select (Ideal.cmp .oge x (Ideal.ofBits .f32 0x00000000#32)) x (Ideal.ofBits .f32 0x3C23D70A#32 * x)

/-- The activation of a layer: the leaky unit, or nothing. -/
def act (lk : Bool) (x : EReal) : EReal := if lk then leaky x else x

/-- A layer before its activation: h·Wselfᵀ + hn·Wneighᵀ + b. -/
def lin {n d : Nat} (h hn : Mat n d) (ws wn : Mat d d) (b : Fin d → EReal) : Mat n d :=
  fun i => (∑ k : Fin d, h (ix2 (i 0) k) * ws (ix2 (i 1) k)) + (∑ k : Fin d, hn (ix2 (i 0) k) * wn (ix2 (i 1) k)) + b (i 1)

/-- A layer. -/
def layer {n d : Nat} (lk : Bool) (h hn : Mat n d) (ws wn : Mat d d) (b : Fin d → EReal) : Mat n d :=
  fun i => act lk (lin h hn ws wn b i)

theorem lin_apply {n d : Nat} (h hn : Mat n d) (ws wn : Mat d d) (b : Fin d → EReal) (r : Fin n) (q : Fin d) :
    lin h hn ws wn b (ix2 r q)
      = (∑ k : Fin d, h (ix2 r k) * ws (ix2 q k)) + (∑ k : Fin d, hn (ix2 r k) * wn (ix2 q k)) + b q := rfl

theorem layer_apply {n d : Nat} (lk : Bool) (h hn : Mat n d) (ws wn : Mat d d) (b : Fin d → EReal) (r : Fin n) (q : Fin d) :
    layer lk h hn ws wn b (ix2 r q) = act lk (lin h hn ws wn b (ix2 r q)) := rfl

/-- A layer's rows depend only on the same rows of its two inputs: rows r of (h, hn) and R of (h', hn') agreeing,
    entry (r, q) of the one layer is entry (R, q) of the other. This is what lets a layer computed one block of rows at a
    time be compared with the layer of the whole arrays. -/
theorem lin_rows {n n' d : Nat} (h hn : Mat n d) (h' hn' : Mat n' d) (ws wn : Mat d d) (b : Fin d → EReal)
    (r : Fin n) (R : Fin n') (eh : ∀ k, h (ix2 r k) = h' (ix2 R k)) (en : ∀ k, hn (ix2 r k) = hn' (ix2 R k)) (q : Fin d) :
    lin h hn ws wn b (ix2 r q) = lin h' hn' ws wn b (ix2 R q) := by
  rw [lin_apply, lin_apply]
  simp only [eh, en]

/-- An entry of a layer depends on one row of each input, one row of each weight matrix and one bias entry: when
    those agree, entry j of one layer is entry J of the other (the arrays may have different numbers of rows). -/
theorem layer_congr {n n' d : Nat} (lk : Bool) (x xn : Mat n d) (h hn : Mat n' d) (ws wn ws' wn' : Mat d d)
    (b b' : Fin d → EReal) (j : (⟨2, ![n, d]⟩ : Shape).Idx) (J : (⟨2, ![n', d]⟩ : Shape).Idx)
    (hx : ∀ k : Fin d, x (ix2 (j 0) k) = h (ix2 (J 0) k)) (hxn : ∀ k : Fin d, xn (ix2 (j 0) k) = hn (ix2 (J 0) k))
    (hws : ∀ k : Fin d, ws (ix2 (j 1) k) = ws' (ix2 (J 1) k)) (hwn : ∀ k : Fin d, wn (ix2 (j 1) k) = wn' (ix2 (J 1) k))
    (hb : b (j 1) = b' (J 1)) :
    layer lk x xn ws wn b j = layer lk h hn ws' wn' b' J := by
  unfold layer lin
  simp only [hx, hxn, hws, hwn, hb]

/-- The network: three layers, each fed its own input and that input's neighbour mean `hn`. The mean is a parameter, so
    that two ways of taking it (a product with a reciprocal, a quotient) meet in one definition. -/
def net {n d : Nat} (hn : Mat n d → Mat n d) (x : Mat n d) (w1s w1n : Mat d d) (b1 : Fin d → EReal)
    (w2s w2n : Mat d d) (b2 : Fin d → EReal) (w3s w3n : Mat d d) (b3 : Fin d → EReal) : Mat n d :=
  layer false
    (layer true (layer true x (hn x) w1s w1n b1) (hn (layer true x (hn x) w1s w1n b1)) w2s w2n b2)
    (hn (layer true (layer true x (hn x) w1s w1n b1) (hn (layer true x (hn x) w1s w1n b1)) w2s w2n b2))
    w3s w3n b3

/-- The float word 0x3F800000 is the number one. -/
theorem ofBits_one_f32 : Ideal.ofBits .f32 0x3F800000#32 = 1 := by
  simp [Ideal.ofBits, Ideal.ieee, -EReal.coe_mul]; norm_num

/-- Multiplying by the reciprocal of max(d, 1) is dividing by max(d, 1), for every extended real x and d: the divisor
    is at least one, hence not zero, and a quotient by a nonzero divisor is the product with its inverse. -/
theorem mul_recip_eq_div (x d : EReal) :
    x * Ideal.div (Ideal.ofBits .f32 0x3F800000#32) (max d (Ideal.ofBits .f32 0x3F800000#32))
      = Ideal.div x (max d (Ideal.ofBits .f32 0x3F800000#32)) := by
  rw [ofBits_one_f32]
  have hm : max d 1 ≠ 0 := ne_of_gt (lt_of_lt_of_le zero_lt_one (le_max_right d 1))
  rw [Ideal.div, if_neg hm, Ideal.div, if_neg hm, one_mul]

end Cert.Sage

end
-- ==== Proof.LibMatmulPlain.lean ====
/-
  A plain matrix product read at an index, over the extended reals.

  For the dimension numbers of an M×K by K×N product (contract the left operand's axis 1 with the right
  operand's axis 0, no batch axes), the product accumulated into the zero matrix has, at row `p` and column `q`,
  the entry  Σ_{k < K} lhs(p, k) · rhs(k, q):  the contraction index of the dimension numbers is its one coordinate,
  the left index keeps the row and takes the contraction coordinate as its column, and the right index takes the
  contraction coordinate as its row and keeps the column. Generic in M, K, N and in the operands' formats.
-/
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat}

/-- The left index keeps the output's row. -/
theorem plain_lhs_row (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left index's column is the contraction coordinate. -/
theorem plain_lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- The right index's row is the contraction coordinate. -/
theorem plain_rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- The right index keeps the output's column. -/
theorem plain_rhs_col (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- THE PRODUCT AT AN ENTRY: a matrix product with plain dimension numbers, accumulated into the zero matrix, is at
    `(p, q)` the sum over the contracted axis of the operands' products. The dimension numbers are passed as any record
    equal to `DotDims.plain M K N` (a printed record with the same six lists is, by `rfl`). -/
theorem matmul_plain_zero_apply {φ₁ φ₂ : FTy} (D : DotDims ⟨2, ![M, K]⟩ ⟨2, ![K, N]⟩ ⟨2, ![M, N]⟩)
    (hD : D = DotDims.plain M K N) (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

end Cert.LibMatmulPlain

end
-- ==== Proof.KernelBlock.lean ====
/-
  What the dense kernel's body stores, entry by entry, over the extended reals.

  The body loads a block x of 5000 node rows, the matching block xn of aggregated neighbour rows, the two 64×64
  weight matrices and the bias row; it transposes each weight matrix, multiplies on the matrix unit into a zero
  accumulator, adds the two products and the bias row spread over the rows, and (on the first two layers) applies the
  leaky unit. A change of float format is the identity here, so at row r and output feature q the stored value is

      act ( Σ_k x(r, k) · Wself(q, k)  +  Σ_k xn(r, k) · Wneigh(q, k)  +  b(0, q) ),

  the layer of Spec.lean on the block's rows. The three layers' bodies differ only in a re-laying of a block to its own
  shape (the identity) and in the last one having no activation.
-/
import proofs.«100329_j87024627351878_1_alg».proof.Proof.Gen.KernelIdeal.Skeleton
import proofs.«100329_j87024627351878_1_alg».proof.Proof.Spec
import proofs.«100329_j87024627351878_1_alg».proof.Proof.LibMatmulPlain
import Idealize.ShloMosaic.Lib.ValueLayout
import Idealize.ShloMosaic.Lib.Pipeline.Value

noncomputable section

open scoped BigOperators

namespace Cert.KernelIdeal.Block

open Idealize.ShloMosaic Idealize.ShloMosaic.ValueIdx Cert.KernelIdeal Cert.KernelIdeal.Gen Cert.Sage

/-- One product of the body at an entry: x · wᵀ at (r, q) is Σ_k x(r, k) · w(q, k). -/
theorem prod_entry (x : Vec Ideal S5000x64 .f32) (w : Vec Ideal S64x64 .f32) (hb : FTy.bits .bf16 < FTy.bits .f32)
    (ht : S64x64.Transposes [1, 0] S64x64) (r : Fin 5000) (q : Fin 64) :
    matmul (F := Ideal) dot_S5000x64_S64x64_S5000x64_1_0_0_1_n_n none (truncf .bf16 x hb)
      (transpose S64x64 [1, 0] (truncf .bf16 w hb) ht) (constant S5000x64 .f32 0x00000000#32) (ix2 r q)
    = ∑ k : Fin 64, x (ix2 r k) * w (ix2 q k) := by
  refine (Cert.LibMatmulPlain.matmul_plain_zero_apply (M := 5000) (K := 64) (N := 64)
    dot_S5000x64_S64x64_S5000x64_1_0_0_1_n_n rfl none _ _ r q).trans ?_
  refine Finset.sum_congr rfl fun k _ => ?_
  rw [transpose_ix2_apply]
  rfl

/-- The bias row spread over the block's rows, at (r, q), is the row's entry q. -/
theorem bias_entry (b : Vec Ideal S1x64 .f32) (hc : S1x64.ShapeCasts S1x64) (hbr : S1x64.Broadcasts S5000x64)
    (r : Fin 5000) (q : Fin 64) :
    broadcastTo S5000x64 (shapeCast S1x64 b hc) hbr (ix2 r q) = b (ix2 (0 : Fin 1) q) := by
  rw [shapeCast_self, broadcastTo_1b_ab_apply]

/-- The layer of a block: the body's arithmetic before the activation, at an entry. -/
theorem pre_entry (x xn : Vec Ideal S5000x64 .f32) (ws wn : Vec Ideal S64x64 .f32) (b : Vec Ideal S1x64 .f32)
    (hb : FTy.bits .bf16 < FTy.bits .f32) (ht : S64x64.Transposes [1, 0] S64x64)
    (hc : S1x64.ShapeCasts S1x64) (hbr : S1x64.Broadcasts S5000x64) (r : Fin 5000) (q : Fin 64) :
    addf (addf (matmul (F := Ideal) dot_S5000x64_S64x64_S5000x64_1_0_0_1_n_n none (truncf .bf16 x hb)
        (transpose S64x64 [1, 0] (truncf .bf16 ws hb) ht) (constant S5000x64 .f32 0x00000000#32))
      (matmul (F := Ideal) dot_S5000x64_S64x64_S5000x64_1_0_0_1_n_n none (truncf .bf16 xn hb)
        (transpose S64x64 [1, 0] (truncf .bf16 wn hb) ht) (constant S5000x64 .f32 0x00000000#32)))
      (broadcastTo S5000x64 (shapeCast S1x64 b hc) hbr) (ix2 r q)
    = lin (n := 5000) (d := 64) x xn ws wn (fun q => b (ix2 (0 : Fin 1) q)) (ix2 r q) := by
  rw [addf_apply, addf_apply, prod_entry, prod_entry, bias_entry, lin_apply]

/-- Layer 1's body at an entry: the leaky layer of the block. -/
theorem pay0_entry (x xn : Vec Ideal S5000x64 .f32) (ws wn : Vec Ideal S64x64 .f32) (b : Vec Ideal S1x64 .f32)
    (r : Fin 5000) (q : Fin 64) :
    k0_pay1 (F := Ideal) x xn ws wn b (ix2 r q)
      = layer (n := 5000) (d := 64) true x xn ws wn (fun q => b (ix2 (0 : Fin 1) q)) (ix2 r q) := by
  unfold k0_pay1
  dsimp only
  rw [shapeCast_self, select_apply, cmpf_apply, mulf_apply, broadcast_apply, broadcast_apply, pre_entry]
  rfl

/-- Layer 2's body at an entry: the leaky layer of the block. -/
theorem pay1_entry (x xn : Vec Ideal S5000x64 .f32) (ws wn : Vec Ideal S64x64 .f32) (b : Vec Ideal S1x64 .f32)
    (r : Fin 5000) (q : Fin 64) :
    k1_pay1 (F := Ideal) x xn ws wn b (ix2 r q)
      = layer (n := 5000) (d := 64) true x xn ws wn (fun q => b (ix2 (0 : Fin 1) q)) (ix2 r q) := by
  unfold k1_pay1
  dsimp only
  rw [shapeCast_self, shapeCast_self, select_apply, cmpf_apply, mulf_apply, broadcast_apply, broadcast_apply, pre_entry]
  rfl

/-- Layer 3's body at an entry: the layer of the block, no activation. -/
theorem pay2_entry (x xn : Vec Ideal S5000x64 .f32) (ws wn : Vec Ideal S64x64 .f32) (b : Vec Ideal S1x64 .f32)
    (r : Fin 5000) (q : Fin 64) :
    k2_pay1 (F := Ideal) x xn ws wn b (ix2 r q)
      = layer (n := 5000) (d := 64) false x xn ws wn (fun q => b (ix2 (0 : Fin 1) q)) (ix2 r q) := by
  unfold k2_pay1
  dsimp only
  rw [shapeCast_self, shapeCast_self, pre_entry]
  rfl

/-- Layer 1's body at any index of the block. -/
theorem pay0_at (x xn : Vec Ideal S5000x64 .f32) (ws wn : Vec Ideal S64x64 .f32) (b : Vec Ideal S1x64 .f32)
    (j : S5000x64.Idx) :
    k0_pay1 (F := Ideal) x xn ws wn b j
      = layer (n := 5000) (d := 64) true x xn ws wn (fun q => b (ix2 (0 : Fin 1) q)) j := by
  obtain ⟨r, q, rfl⟩ : ∃ (r : Fin 5000) (q : Fin 64), j = ix2 r q := ⟨j 0, j 1, eq_ix2 j⟩
  exact pay0_entry x xn ws wn b r q

/-- Layer 2's body at any index of the block. -/
theorem pay1_at (x xn : Vec Ideal S5000x64 .f32) (ws wn : Vec Ideal S64x64 .f32) (b : Vec Ideal S1x64 .f32)
    (j : S5000x64.Idx) :
    k1_pay1 (F := Ideal) x xn ws wn b j
      = layer (n := 5000) (d := 64) true x xn ws wn (fun q => b (ix2 (0 : Fin 1) q)) j := by
  obtain ⟨r, q, rfl⟩ : ∃ (r : Fin 5000) (q : Fin 64), j = ix2 r q := ⟨j 0, j 1, eq_ix2 j⟩
  exact pay1_entry x xn ws wn b r q

/-- Layer 3's body at any index of the block. -/
theorem pay2_at (x xn : Vec Ideal S5000x64 .f32) (ws wn : Vec Ideal S64x64 .f32) (b : Vec Ideal S1x64 .f32)
    (j : S5000x64.Idx) :
    k2_pay1 (F := Ideal) x xn ws wn b j
      = layer (n := 5000) (d := 64) false x xn ws wn (fun q => b (ix2 (0 : Fin 1) q)) j := by
  obtain ⟨r, q, rfl⟩ : ∃ (r : Fin 5000) (q : Fin 64), j = ix2 r q := ⟨j 0, j 1, eq_ix2 j⟩
  exact pay2_entry x xn ws wn b r q

end Cert.KernelIdeal.Block

end
-- ==== Proof.KernelRegions.lean ====
/-
  From blocks to arrays: what each of the three kernel launches leaves in its result array.

  A launch walks 20 grid points; at point t it stages rows 5000·t … 5000·t + 4999 of the node features and of the
  aggregated neighbour features, and the whole weight matrices and bias row, runs the body, and writes the body's block
  back to the same rows of the result. The body computes the layer of its blocks (KernelBlock.lean), a layer's rows depend
  only on the same rows of its two inputs, and the 20 row blocks tile the 100000 rows; so the result array is the layer
  of the whole arrays the launch was entered with. Stated for any contents V at the launch's entry; the run instantiates it.
-/
import proofs.«100329_j87024627351878_1_alg».proof.Proof.KernelIdealFrameP
import proofs.«100329_j87024627351878_1_alg».proof.Proof.KernelBlock

set_option maxRecDepth 16384

noncomputable section

open scoped BigOperators

namespace Cert.KernelIdeal.Regions

open Idealize.ShloMosaic Idealize.ShloMosaic.TcCoe Idealize.ShloMosaic.ValueIdx Idealize.SL.Sem
open Cert.KernelIdeal Cert.KernelIdeal.Gen Cert.KernelIdeal.GenP Cert.Sage Cert.KernelIdeal.Block
open Idealize.ShloMosaic.Pipeline (Dat)

variable (V : (c : Dev nD) → (b : Ref sig .tc) → Buf (Elt Ideal) ((c : Thread nD τ).loc b))

/-- The zero offsets of a whole-block access. -/
theorem zeros2 : (![0, 0] : Fin 2 → Nat) = fun _ => 0 := funext fun a => by fin_cases a <;> rfl

/-! ## Layer 1: region 0 -/

/-- What region 0 leaves in its result array: layer 1 of the arrays the region is entered with. -/
def G0 (c : Dev nD) : Mat 100000 64 :=
  layer true (V c main_arg0 : S100000x64.Idx → EReal) (V c main_v20 : S100000x64.Idx → EReal)
    (V c main_arg3 : S64x64.Idx → EReal) (V c main_arg4 : S64x64.Idx → EReal)
    (fun q => (V c main_v21 : S1x64.Idx → EReal) (ix2 (0 : Fin 1) q))

/-- Where the region's blocks sit: the two row-block windows move with the result's window, whose block number
    is below 20 and whose column block is 0; the weights and the bias are whole arrays. -/
theorem idx_facts0 : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) < 20 :=
  (by decide +kernel : ∀ t : Fin grid0.N, _)

/-- Every one of the 20 row blocks is some grid point's. -/
theorem idx_onto0 : ∀ q0 : Fin 20, ∃ t : Fin cfg0.N, win0_5.index t (0 : Fin 2) = q0.val ∧ win0_5.index t (1 : Fin 2) = 0 :=
  (by decide +kernel : ∀ q0 : Fin 20, ∃ t : Fin grid0.N, win0_5.index t (0 : Fin 2) = q0.val ∧ win0_5.index t (1 : Fin 2) = 0)

/-- What grid point t writes back is block t of the layer of the whole arrays: the body computes the layer of its
    blocks, and rows 5000·t … 5000·t + 4999 of a layer depend on the same rows of its inputs only. -/
theorem flushed0_eq (c : Dev nD) (t : Fin cfg0.N) :
    (dat0 V c).flushed 5 t = ((cfg0.win 5).blk t).view.read (Elt Ideal) (G0 V c) := by
  show (cfg0.win 5).cut (grid0.coords t) ((dat0 V c).after 5 t) = _
  rw [after0_5]
  unfold out0_5
  rw [View.canon_unit_zero zeros2]
  simp only [View.ld_unit_zero (S := S5000x64) zeros2, View.ld_unit_zero (S := S64x64) zeros2,
    View.ld_unit_zero (S := S1x64) zeros2]
  obtain ⟨e00, e01, e10, e11, e20, e21, e30, e31, e40, e41, e51, -⟩ := idx_facts0 t
  funext j
  show k0_pay1 (iblk0 V c 0 t) (iblk0 V c 1 t) (iblk0 V c 2 t) (iblk0 V c 3 t) (iblk0 V c 4 t) j
    = G0 V c (((cfg0.win 5).blk t).view.emb j)
  refine (pay0_at _ _ _ _ _ j).trans ?_
  unfold G0
  refine layer_congr (n := 5000) (n' := 100000) (d := 64) true _ _ _ _ _ _ _ _ _ _ j _
    (fun k => ?_) (fun k => ?_) (fun k => ?_) (fun k => ?_) ?_
  · show V c main_arg0 (((cfg0.win 0).blk t).view.emb (ix2 (n0 := 5000) (n1 := 64) (j 0) k))
      = V c main_arg0 (ix2 (n0 := 100000) (n1 := 64) ((((cfg0.win 5).blk t).view.emb j) 0) k)
    refine congrArg (V c main_arg0) (funext fun a => Fin.ext ?_)
    match a with
    | ⟨0, _⟩ =>
      show win0_0.index t (0 : Fin 2) * 5000 + 1 * (j 0).val = win0_5.index t (0 : Fin 2) * 5000 + 1 * (j 0).val
      omega
    | ⟨1, _⟩ => show win0_0.index t (1 : Fin 2) * 64 + 1 * k.val = k.val; omega
  · show V c main_v20 (((cfg0.win 1).blk t).view.emb (ix2 (n0 := 5000) (n1 := 64) (j 0) k))
      = V c main_v20 (ix2 (n0 := 100000) (n1 := 64) ((((cfg0.win 5).blk t).view.emb j) 0) k)
    refine congrArg (V c main_v20) (funext fun a => Fin.ext ?_)
    match a with
    | ⟨0, _⟩ =>
      show win0_1.index t (0 : Fin 2) * 5000 + 1 * (j 0).val = win0_5.index t (0 : Fin 2) * 5000 + 1 * (j 0).val
      omega
    | ⟨1, _⟩ => show win0_1.index t (1 : Fin 2) * 64 + 1 * k.val = k.val; omega
  · show V c main_arg3 (((cfg0.win 2).blk t).view.emb (ix2 (n0 := 64) (n1 := 64) (j 1) k))
      = V c main_arg3 (ix2 (n0 := 64) (n1 := 64) ((((cfg0.win 5).blk t).view.emb j) 1) k)
    refine congrArg (V c main_arg3) (funext fun a => Fin.ext ?_)
    match a with
    | ⟨0, _⟩ =>
      show win0_2.index t (0 : Fin 2) * 64 + 1 * (j 1).val = win0_5.index t (1 : Fin 2) * 64 + 1 * (j 1).val
      omega
    | ⟨1, _⟩ => show win0_2.index t (1 : Fin 2) * 64 + 1 * k.val = k.val; omega
  · show V c main_arg4 (((cfg0.win 3).blk t).view.emb (ix2 (n0 := 64) (n1 := 64) (j 1) k))
      = V c main_arg4 (ix2 (n0 := 64) (n1 := 64) ((((cfg0.win 5).blk t).view.emb j) 1) k)
    refine congrArg (V c main_arg4) (funext fun a => Fin.ext ?_)
    match a with
    | ⟨0, _⟩ =>
      show win0_3.index t (0 : Fin 2) * 64 + 1 * (j 1).val = win0_5.index t (1 : Fin 2) * 64 + 1 * (j 1).val
      omega
    | ⟨1, _⟩ => show win0_3.index t (1 : Fin 2) * 64 + 1 * k.val = k.val; omega
  · show V c main_v21 (((cfg0.win 4).blk t).view.emb (ix2 (n0 := 1) (n1 := 64) (0 : Fin 1) (j 1)))
      = V c main_v21 (ix2 (n0 := 1) (n1 := 64) (0 : Fin 1) ((((cfg0.win 5).blk t).view.emb j) 1))
    refine congrArg (V c main_v21) (funext fun a => Fin.ext ?_)
    match a with
    | ⟨0, _⟩ => show win0_4.index t (0 : Fin 2) * 1 + 1 * 0 = 0; omega
    | ⟨1, _⟩ =>
      show win0_4.index t (1 : Fin 2) * 64 + 1 * (j 1).val = win0_5.index t (1 : Fin 2) * 64 + 1 * (j 1).val
      omega

/-- An index of the result array is in point t's block iff each coordinate is in the block's range. -/
theorem mem_blk0 (t : Fin cfg0.N) (i : S100000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v22).slice (win0_5.rect t)).set ↔ _
  rw [View.set_slice_whole, Rect.mem_set_unit]
  exact Iff.rfl

/-- The 20 blocks of 5000 rows cover the result array: row r is in block r / 5000. -/
theorem cover0 (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  obtain ⟨t, q0, q1⟩ := idx_onto0 ⟨(i 0).val / 5000, by omega⟩
  have q0' : win0_5.index t (0 : Fin 2) = (i 0).val / 5000 := q0
  refine ⟨t, flush0_5 t, ?_⟩
  rw [mem_blk0]
  intro a
  match a with
  | ⟨0, _⟩ =>
    show win0_5.index t (0 : Fin 2) * 5000 ≤ (i 0).val ∧ (i 0).val < win0_5.index t (0 : Fin 2) * 5000 + 5000
    omega
  | ⟨1, _⟩ =>
    show win0_5.index t (1 : Fin 2) * 64 ≤ (i 1).val ∧ (i 1).val < win0_5.index t (1 : Fin 2) * 64 + 64
    omega

/-- THE RESULT ARRAY of region 0, after its 20 points: layer 1 of the arrays the region was entered with. -/
theorem final0 (c : Dev nD) : (dat0 V c).arrAt 5 cfg0.N = G0 V c :=
  (dat0 V c).arrAt_eq_of_cover 5 (G0 V c) (fun t _ => flushed0_eq V c t) (cover0)

/-! ## Layer 2: region 1 -/

/-- What region 1 leaves in its result array: layer 2 of the arrays the region is entered with. -/
def G1 (c : Dev nD) : Mat 100000 64 :=
  layer true (V c main_v22 : S100000x64.Idx → EReal) (V c main_v35 : S100000x64.Idx → EReal)
    (V c main_arg6 : S64x64.Idx → EReal) (V c main_arg7 : S64x64.Idx → EReal)
    (fun q => (V c main_v36 : S1x64.Idx → EReal) (ix2 (0 : Fin 1) q))

/-- Where the region's blocks sit: the two row-block windows move with the result's window, whose block number
    is below 20 and whose column block is 0; the weights and the bias are whole arrays. -/
theorem idx_facts1 : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 ∧ win1_5.index t (0 : Fin 2) < 20 :=
  (by decide +kernel : ∀ t : Fin grid1.N, _)

/-- Every one of the 20 row blocks is some grid point's. -/
theorem idx_onto1 : ∀ q0 : Fin 20, ∃ t : Fin cfg1.N, win1_5.index t (0 : Fin 2) = q0.val ∧ win1_5.index t (1 : Fin 2) = 0 :=
  (by decide +kernel : ∀ q0 : Fin 20, ∃ t : Fin grid1.N, win1_5.index t (0 : Fin 2) = q0.val ∧ win1_5.index t (1 : Fin 2) = 0)

/-- What grid point t writes back is block t of the layer of the whole arrays: the body computes the layer of its
    blocks, and rows 5000·t … 5000·t + 4999 of a layer depend on the same rows of its inputs only. -/
theorem flushed1_eq (c : Dev nD) (t : Fin cfg1.N) :
    (dat1 V c).flushed 5 t = ((cfg1.win 5).blk t).view.read (Elt Ideal) (G1 V c) := by
  show (cfg1.win 5).cut (grid1.coords t) ((dat1 V c).after 5 t) = _
  rw [after1_5]
  unfold out1_5
  rw [View.canon_unit_zero zeros2]
  simp only [View.ld_unit_zero (S := S5000x64) zeros2, View.ld_unit_zero (S := S64x64) zeros2,
    View.ld_unit_zero (S := S1x64) zeros2]
  obtain ⟨e00, e01, e10, e11, e20, e21, e30, e31, e40, e41, e51, -⟩ := idx_facts1 t
  funext j
  show k1_pay1 (iblk1 V c 0 t) (iblk1 V c 1 t) (iblk1 V c 2 t) (iblk1 V c 3 t) (iblk1 V c 4 t) j
    = G1 V c (((cfg1.win 5).blk t).view.emb j)
  refine (pay1_at _ _ _ _ _ j).trans ?_
  unfold G1
  refine layer_congr (n := 5000) (n' := 100000) (d := 64) true _ _ _ _ _ _ _ _ _ _ j _
    (fun k => ?_) (fun k => ?_) (fun k => ?_) (fun k => ?_) ?_
  · show V c main_v22 (((cfg1.win 0).blk t).view.emb (ix2 (n0 := 5000) (n1 := 64) (j 0) k))
      = V c main_v22 (ix2 (n0 := 100000) (n1 := 64) ((((cfg1.win 5).blk t).view.emb j) 0) k)
    refine congrArg (V c main_v22) (funext fun a => Fin.ext ?_)
    match a with
    | ⟨0, _⟩ =>
      show win1_0.index t (0 : Fin 2) * 5000 + 1 * (j 0).val = win1_5.index t (0 : Fin 2) * 5000 + 1 * (j 0).val
      omega
    | ⟨1, _⟩ => show win1_0.index t (1 : Fin 2) * 64 + 1 * k.val = k.val; omega
  · show V c main_v35 (((cfg1.win 1).blk t).view.emb (ix2 (n0 := 5000) (n1 := 64) (j 0) k))
      = V c main_v35 (ix2 (n0 := 100000) (n1 := 64) ((((cfg1.win 5).blk t).view.emb j) 0) k)
    refine congrArg (V c main_v35) (funext fun a => Fin.ext ?_)
    match a with
    | ⟨0, _⟩ =>
      show win1_1.index t (0 : Fin 2) * 5000 + 1 * (j 0).val = win1_5.index t (0 : Fin 2) * 5000 + 1 * (j 0).val
      omega
    | ⟨1, _⟩ => show win1_1.index t (1 : Fin 2) * 64 + 1 * k.val = k.val; omega
  · show V c main_arg6 (((cfg1.win 2).blk t).view.emb (ix2 (n0 := 64) (n1 := 64) (j 1) k))
      = V c main_arg6 (ix2 (n0 := 64) (n1 := 64) ((((cfg1.win 5).blk t).view.emb j) 1) k)
    refine congrArg (V c main_arg6) (funext fun a => Fin.ext ?_)
    match a with
    | ⟨0, _⟩ =>
      show win1_2.index t (0 : Fin 2) * 64 + 1 * (j 1).val = win1_5.index t (1 : Fin 2) * 64 + 1 * (j 1).val
      omega
    | ⟨1, _⟩ => show win1_2.index t (1 : Fin 2) * 64 + 1 * k.val = k.val; omega
  · show V c main_arg7 (((cfg1.win 3).blk t).view.emb (ix2 (n0 := 64) (n1 := 64) (j 1) k))
      = V c main_arg7 (ix2 (n0 := 64) (n1 := 64) ((((cfg1.win 5).blk t).view.emb j) 1) k)
    refine congrArg (V c main_arg7) (funext fun a => Fin.ext ?_)
    match a with
    | ⟨0, _⟩ =>
      show win1_3.index t (0 : Fin 2) * 64 + 1 * (j 1).val = win1_5.index t (1 : Fin 2) * 64 + 1 * (j 1).val
      omega
    | ⟨1, _⟩ => show win1_3.index t (1 : Fin 2) * 64 + 1 * k.val = k.val; omega
  · show V c main_v36 (((cfg1.win 4).blk t).view.emb (ix2 (n0 := 1) (n1 := 64) (0 : Fin 1) (j 1)))
      = V c main_v36 (ix2 (n0 := 1) (n1 := 64) (0 : Fin 1) ((((cfg1.win 5).blk t).view.emb j) 1))
    refine congrArg (V c main_v36) (funext fun a => Fin.ext ?_)
    match a with
    | ⟨0, _⟩ => show win1_4.index t (0 : Fin 2) * 1 + 1 * 0 = 0; omega
    | ⟨1, _⟩ =>
      show win1_4.index t (1 : Fin 2) * 64 + 1 * (j 1).val = win1_5.index t (1 : Fin 2) * 64 + 1 * (j 1).val
      omega

/-- An index of the result array is in point t's block iff each coordinate is in the block's range. -/
theorem mem_blk1 (t : Fin cfg1.N) (i : S100000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v37).slice (win1_5.rect t)).set ↔ _
  rw [View.set_slice_whole, Rect.mem_set_unit]
  exact Iff.rfl

/-- The 20 blocks of 5000 rows cover the result array: row r is in block r / 5000. -/
theorem cover1 (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, q0, q1⟩ := idx_onto1 ⟨(i 0).val / 5000, by omega⟩
  have q0' : win1_5.index t (0 : Fin 2) = (i 0).val / 5000 := q0
  refine ⟨t, flush1_5 t, ?_⟩
  rw [mem_blk1]
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 64 ≤ (i 1).val ∧ (i 1).val < win1_5.index t (1 : Fin 2) * 64 + 64
    omega

/-- THE RESULT ARRAY of region 1, after its 20 points: layer 2 of the arrays the region was entered with. -/
theorem final1 (c : Dev nD) : (dat1 V c).arrAt 5 cfg1.N = G1 V c :=
  (dat1 V c).arrAt_eq_of_cover 5 (G1 V c) (fun t _ => flushed1_eq V c t) (cover1)

/-! ## Layer 3: region 2 -/

/-- What region 2 leaves in its result array: layer 3 of the arrays the region is entered with. -/
def G2 (c : Dev nD) : Mat 100000 64 :=
  layer false (V c main_v37 : S100000x64.Idx → EReal) (V c main_v50 : S100000x64.Idx → EReal)
    (V c main_arg9 : S64x64.Idx → EReal) (V c main_arg10 : S64x64.Idx → EReal)
    (fun q => (V c main_v51 : S1x64.Idx → EReal) (ix2 (0 : Fin 1) q))

/-- Where the region's blocks sit: the two row-block windows move with the result's window, whose block number
    is below 20 and whose column block is 0; the weights and the bias are whole arrays. -/
theorem idx_facts2 : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (1 : Fin 2) = 0 ∧ win2_5.index t (0 : Fin 2) < 20 :=
  (by decide +kernel : ∀ t : Fin grid2.N, _)

/-- Every one of the 20 row blocks is some grid point's. -/
theorem idx_onto2 : ∀ q0 : Fin 20, ∃ t : Fin cfg2.N, win2_5.index t (0 : Fin 2) = q0.val ∧ win2_5.index t (1 : Fin 2) = 0 :=
  (by decide +kernel : ∀ q0 : Fin 20, ∃ t : Fin grid2.N, win2_5.index t (0 : Fin 2) = q0.val ∧ win2_5.index t (1 : Fin 2) = 0)

/-- What grid point t writes back is block t of the layer of the whole arrays: the body computes the layer of its
    blocks, and rows 5000·t … 5000·t + 4999 of a layer depend on the same rows of its inputs only. -/
theorem flushed2_eq (c : Dev nD) (t : Fin cfg2.N) :
    (dat2 V c).flushed 5 t = ((cfg2.win 5).blk t).view.read (Elt Ideal) (G2 V c) := by
  show (cfg2.win 5).cut (grid2.coords t) ((dat2 V c).after 5 t) = _
  rw [after2_5]
  unfold out2_5
  rw [View.canon_unit_zero zeros2]
  simp only [View.ld_unit_zero (S := S5000x64) zeros2, View.ld_unit_zero (S := S64x64) zeros2,
    View.ld_unit_zero (S := S1x64) zeros2]
  obtain ⟨e00, e01, e10, e11, e20, e21, e30, e31, e40, e41, e51, -⟩ := idx_facts2 t
  funext j
  show k2_pay1 (iblk2 V c 0 t) (iblk2 V c 1 t) (iblk2 V c 2 t) (iblk2 V c 3 t) (iblk2 V c 4 t) j
    = G2 V c (((cfg2.win 5).blk t).view.emb j)
  refine (pay2_at _ _ _ _ _ j).trans ?_
  unfold G2
  refine layer_congr (n := 5000) (n' := 100000) (d := 64) false _ _ _ _ _ _ _ _ _ _ j _
    (fun k => ?_) (fun k => ?_) (fun k => ?_) (fun k => ?_) ?_
  · show V c main_v37 (((cfg2.win 0).blk t).view.emb (ix2 (n0 := 5000) (n1 := 64) (j 0) k))
      = V c main_v37 (ix2 (n0 := 100000) (n1 := 64) ((((cfg2.win 5).blk t).view.emb j) 0) k)
    refine congrArg (V c main_v37) (funext fun a => Fin.ext ?_)
    match a with
    | ⟨0, _⟩ =>
      show win2_0.index t (0 : Fin 2) * 5000 + 1 * (j 0).val = win2_5.index t (0 : Fin 2) * 5000 + 1 * (j 0).val
      omega
    | ⟨1, _⟩ => show win2_0.index t (1 : Fin 2) * 64 + 1 * k.val = k.val; omega
  · show V c main_v50 (((cfg2.win 1).blk t).view.emb (ix2 (n0 := 5000) (n1 := 64) (j 0) k))
      = V c main_v50 (ix2 (n0 := 100000) (n1 := 64) ((((cfg2.win 5).blk t).view.emb j) 0) k)
    refine congrArg (V c main_v50) (funext fun a => Fin.ext ?_)
    match a with
    | ⟨0, _⟩ =>
      show win2_1.index t (0 : Fin 2) * 5000 + 1 * (j 0).val = win2_5.index t (0 : Fin 2) * 5000 + 1 * (j 0).val
      omega
    | ⟨1, _⟩ => show win2_1.index t (1 : Fin 2) * 64 + 1 * k.val = k.val; omega
  · show V c main_arg9 (((cfg2.win 2).blk t).view.emb (ix2 (n0 := 64) (n1 := 64) (j 1) k))
      = V c main_arg9 (ix2 (n0 := 64) (n1 := 64) ((((cfg2.win 5).blk t).view.emb j) 1) k)
    refine congrArg (V c main_arg9) (funext fun a => Fin.ext ?_)
    match a with
    | ⟨0, _⟩ =>
      show win2_2.index t (0 : Fin 2) * 64 + 1 * (j 1).val = win2_5.index t (1 : Fin 2) * 64 + 1 * (j 1).val
      omega
    | ⟨1, _⟩ => show win2_2.index t (1 : Fin 2) * 64 + 1 * k.val = k.val; omega
  · show V c main_arg10 (((cfg2.win 3).blk t).view.emb (ix2 (n0 := 64) (n1 := 64) (j 1) k))
      = V c main_arg10 (ix2 (n0 := 64) (n1 := 64) ((((cfg2.win 5).blk t).view.emb j) 1) k)
    refine congrArg (V c main_arg10) (funext fun a => Fin.ext ?_)
    match a with
    | ⟨0, _⟩ =>
      show win2_3.index t (0 : Fin 2) * 64 + 1 * (j 1).val = win2_5.index t (1 : Fin 2) * 64 + 1 * (j 1).val
      omega
    | ⟨1, _⟩ => show win2_3.index t (1 : Fin 2) * 64 + 1 * k.val = k.val; omega
  · show V c main_v51 (((cfg2.win 4).blk t).view.emb (ix2 (n0 := 1) (n1 := 64) (0 : Fin 1) (j 1)))
      = V c main_v51 (ix2 (n0 := 1) (n1 := 64) (0 : Fin 1) ((((cfg2.win 5).blk t).view.emb j) 1))
    refine congrArg (V c main_v51) (funext fun a => Fin.ext ?_)
    match a with
    | ⟨0, _⟩ => show win2_4.index t (0 : Fin 2) * 1 + 1 * 0 = 0; omega
    | ⟨1, _⟩ =>
      show win2_4.index t (1 : Fin 2) * 64 + 1 * (j 1).val = win2_5.index t (1 : Fin 2) * 64 + 1 * (j 1).val
      omega

/-- An index of the result array is in point t's block iff each coordinate is in the block's range. -/
theorem mem_blk2 (t : Fin cfg2.N) (i : S100000x64.Idx) :
    i ∈ ((cfg2.win 5).blk t).view.set ↔ ∀ a : Fin 2, win2_5.index t a * S5000x64.size a ≤ (i a).val
      ∧ (i a).val < win2_5.index t a * S5000x64.size a + S5000x64.size a := by
  show i ∈ ((View.whole main_v52).slice (win2_5.rect t)).set ↔ _
  rw [View.set_slice_whole, Rect.mem_set_unit]
  exact Iff.rfl

/-- The 20 blocks of 5000 rows cover the result array: row r is in block r / 5000. -/
theorem cover2 (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  obtain ⟨t, q0, q1⟩ := idx_onto2 ⟨(i 0).val / 5000, by omega⟩
  have q0' : win2_5.index t (0 : Fin 2) = (i 0).val / 5000 := q0
  refine ⟨t, flush2_5 t, ?_⟩
  rw [mem_blk2]
  intro a
  match a with
  | ⟨0, _⟩ =>
    show win2_5.index t (0 : Fin 2) * 5000 ≤ (i 0).val ∧ (i 0).val < win2_5.index t (0 : Fin 2) * 5000 + 5000
    omega
  | ⟨1, _⟩ =>
    show win2_5.index t (1 : Fin 2) * 64 ≤ (i 1).val ∧ (i 1).val < win2_5.index t (1 : Fin 2) * 64 + 64
    omega

/-- THE RESULT ARRAY of region 2, after its 20 points: layer 3 of the arrays the region was entered with. -/
theorem final2 (c : Dev nD) : (dat2 V c).arrAt 5 cfg2.N = G2 V c :=
  (dat2 V c).arrAt_eq_of_cover 5 (G2 V c) (fun t _ => flushed2_eq V c t) (cover2)

end Cert.KernelIdeal.Regions

end
-- ==== Proof.KernelChain.lean ====
/-
  The idealized kernel's result array as a function of its arguments.

  Between launches the program works on whole arrays with host operations: before each launch it gathers the rows
  h[src] of the current node features h, adds them into the rows dst of a zero array (the neighbour sum), and multiplies
  row n by 1 / max(deg(n), 1), computed once before the first launch; it hands the launch h, that neighbour mean, the
  layer's two weight matrices and its bias reshaped to a row. A launch leaves the layer of what it was handed
  (KernelRegions.lean). Followed from the launch memory through the three stretches and the three launches, the
  contents of the result's buffer at the end are the three-layer network of the arguments, the neighbour mean taken as
  the product with the reciprocal.
-/
import proofs.«100329_j87024627351878_1_alg».proof.Proof.KernelRegions
import Idealize.ShloMosaic.Lib.StableHlo.Run
import Idealize.ShloMosaic.Lib.ValueLayout

set_option maxRecDepth 16384

noncomputable section

open scoped BigOperators

namespace Cert.KernelIdeal.Chain

open Idealize.ShloMosaic Idealize.ShloMosaic.TcCoe Idealize.ShloMosaic.ValueIdx Idealize.SL.Sem
open Idealize.ShloMosaic.StableHlo
open Cert.KernelIdeal Cert.KernelIdeal.Gen Cert.KernelIdeal.GenP Cert.KernelIdeal.Regions Cert.Sage

/-! ## The host operations between the launches, as functions of whole arrays -/

/-- The rows to gather: a negative source index counts from the end (100000 is added to it), kept as a column. -/
def srcCol (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The neighbour sum: the rows h[src] added into the rows dst of a zero array. -/
def nsum (h : FVec Ideal S100000x64 .f32) (src dst : IVec S1600000 32) : FVec Ideal S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 dst)
    (Host.gather gather_S100000x64_S1600000x1_S1600000x64_1_0_n_n_0_1_164 h (srcCol src))

/-- The in-degree: ones added into the entries dst of a zero vector. -/
def deg (dst : IVec S1600000 32) : FVec Ideal S100000 .f32 :=
  Host.scatterAdd scatter_S100000_S1600000x1_S1600000_n_0_0_1
    (broadcastInDim S100000 ![] bcast_S_S100000 (constant S_ .f32 0x00000000#32))
    (broadcastInDim S1600000x1 ![0] bcast_S1600000_S1600000x1_0 dst)
    (broadcastInDim S1600000 ![] bcast_S_S1600000 (constant S_ .f32 0x3F800000#32))

/-- The in-degree raised to at least one. -/
def mdeg (dst : IVec S1600000 32) : FVec Ideal S100000 .f32 :=
  maximumf (deg dst) (broadcastInDim S100000 ![] bcast_S_S100000 (constant S_ .f32 0x3F800000#32))

/-- Its reciprocal, 1 / max(deg, 1), computed once. -/
def recip (dst : IVec S1600000 32) : FVec Ideal S100000 .f32 :=
  Host.divf (broadcastInDim S100000 ![] bcast_S_S100000 (constant S_ .f32 0x3F800000#32)) (mdeg dst)

/-- The neighbour mean as the kernel program takes it: the neighbour sum times a per-row factor r. -/
def scaled (h : FVec Ideal S100000x64 .f32) (src dst : IVec S1600000 32) (r : FVec Ideal S100000 .f32) :
    FVec Ideal S100000x64 .f32 :=
  mulf (nsum h src dst)
    (broadcastInDim S100000x64 ![0, 1] bcast_S100000x1_S100000x64_0_1
      (broadcastInDim S100000x1 ![0] bcast_S100000_S100000x1_0 r))

/-- The neighbour mean: the neighbour sum times the reciprocal of max(deg, 1). -/
def hnK (h : FVec Ideal S100000x64 .f32) (src dst : IVec S1600000 32) : FVec Ideal S100000x64 .f32 :=
  scaled h src dst (recip dst)

/-- A bias vector reshaped to a row reads, at (0, q), the vector's entry q. -/
theorem bias_row (b : FVec Ideal S64 .f32) (hc : S64.ShapeCasts S1x64) :
    (fun q : Fin 64 => shapeCast S1x64 b hc (ix2 (0 : Fin 1) q)) = fun q => b (ix1 q) :=
  funext fun q => shapeCast_a_1a_apply b hc 0 q

variable (m : (ℓ : Loc nD τ sig) → Buf (Elt Ideal) ℓ) (ρ : Dev nD → PrngReg) (c : Dev nD)

/-! ## The node features after each launch -/

/-- After the first launch. -/
def K1 : FVec Ideal S100000x64 .f32 :=
  layer (n := 100000) (d := 64) true (m ((c : Thread nD τ).loc main_arg0)) (hnK (m ((c : Thread nD τ).loc main_arg0)) (m ((c : Thread nD τ).loc main_arg1)) (m ((c : Thread nD τ).loc main_arg2)))
    (m ((c : Thread nD τ).loc main_arg3)) (m ((c : Thread nD τ).loc main_arg4)) (fun q => ((m ((c : Thread nD τ).loc main_arg5)) : S64.Idx → EReal) (ix1 q))

/-- After the second. -/
def K2 : FVec Ideal S100000x64 .f32 :=
  layer (n := 100000) (d := 64) true (K1 m c) (hnK (K1 m c) (m ((c : Thread nD τ).loc main_arg1)) (m ((c : Thread nD τ).loc main_arg2)))
    (m ((c : Thread nD τ).loc main_arg6)) (m ((c : Thread nD τ).loc main_arg7)) (fun q => ((m ((c : Thread nD τ).loc main_arg8)) : S64.Idx → EReal) (ix1 q))

/-- After the third: the result. -/
def K3 : FVec Ideal S100000x64 .f32 :=
  layer (n := 100000) (d := 64) false (K2 m c) (hnK (K2 m c) (m ((c : Thread nD τ).loc main_arg1)) (m ((c : Thread nD τ).loc main_arg2)))
    (m ((c : Thread nD τ).loc main_arg9)) (m ((c : Thread nD τ).loc main_arg10)) (fun q => ((m ((c : Thread nD τ).loc main_arg11)) : S64.Idx → EReal) (ix1 q))

/-! ## Before the first launch: the first stretch of host operations, from the launch memory -/

theorem W1_main_arg0 : W1 m ρ c (Proc.devRef .tc main_arg0) = (m ((c : Thread nD τ).loc main_arg0)) := by
  show StableHlo.after hostOps0 (W0 m ρ c) (Proc.devRef .tc main_arg0) = _
  after_results
  try rfl

theorem W1_main_arg1 : W1 m ρ c (Proc.devRef .tc main_arg1) = (m ((c : Thread nD τ).loc main_arg1)) := by
  show StableHlo.after hostOps0 (W0 m ρ c) (Proc.devRef .tc main_arg1) = _
  after_results
  try rfl

theorem W1_main_arg2 : W1 m ρ c (Proc.devRef .tc main_arg2) = (m ((c : Thread nD τ).loc main_arg2)) := by
  show StableHlo.after hostOps0 (W0 m ρ c) (Proc.devRef .tc main_arg2) = _
  after_results
  try rfl

theorem W1_main_arg3 : W1 m ρ c (Proc.devRef .tc main_arg3) = (m ((c : Thread nD τ).loc main_arg3)) := by
  show StableHlo.after hostOps0 (W0 m ρ c) (Proc.devRef .tc main_arg3) = _
  after_results
  try rfl

theorem W1_main_arg4 : W1 m ρ c (Proc.devRef .tc main_arg4) = (m ((c : Thread nD τ).loc main_arg4)) := by
  show StableHlo.after hostOps0 (W0 m ρ c) (Proc.devRef .tc main_arg4) = _
  after_results
  try rfl

theorem W1_main_arg6 : W1 m ρ c (Proc.devRef .tc main_arg6) = (m ((c : Thread nD τ).loc main_arg6)) := by
  show StableHlo.after hostOps0 (W0 m ρ c) (Proc.devRef .tc main_arg6) = _
  after_results
  try rfl

theorem W1_main_arg7 : W1 m ρ c (Proc.devRef .tc main_arg7) = (m ((c : Thread nD τ).loc main_arg7)) := by
  show StableHlo.after hostOps0 (W0 m ρ c) (Proc.devRef .tc main_arg7) = _
  after_results
  try rfl

theorem W1_main_arg8 : W1 m ρ c (Proc.devRef .tc main_arg8) = (m ((c : Thread nD τ).loc main_arg8)) := by
  show StableHlo.after hostOps0 (W0 m ρ c) (Proc.devRef .tc main_arg8) = _
  after_results
  try rfl

theorem W1_main_arg9 : W1 m ρ c (Proc.devRef .tc main_arg9) = (m ((c : Thread nD τ).loc main_arg9)) := by
  show StableHlo.after hostOps0 (W0 m ρ c) (Proc.devRef .tc main_arg9) = _
  after_results
  try rfl

theorem W1_main_arg10 : W1 m ρ c (Proc.devRef .tc main_arg10) = (m ((c : Thread nD τ).loc main_arg10)) := by
  show StableHlo.after hostOps0 (W0 m ρ c) (Proc.devRef .tc main_arg10) = _
  after_results
  try rfl

theorem W1_main_arg11 : W1 m ρ c (Proc.devRef .tc main_arg11) = (m ((c : Thread nD τ).loc main_arg11)) := by
  show StableHlo.after hostOps0 (W0 m ρ c) (Proc.devRef .tc main_arg11) = _
  after_results
  try rfl

theorem W1_main_v7 : W1 m ρ c (Proc.devRef .tc main_v7) = recip (m ((c : Thread nD τ).loc main_arg2)) := by
  show StableHlo.after hostOps0 (W0 m ρ c) (Proc.devRef .tc main_v7) = _
  after_results
  try rfl

theorem W1_main_v20 : W1 m ρ c (Proc.devRef .tc main_v20) = hnK (m ((c : Thread nD τ).loc main_arg0)) (m ((c : Thread nD τ).loc main_arg1)) (m ((c : Thread nD τ).loc main_arg2)) := by
  show StableHlo.after hostOps0 (W0 m ρ c) (Proc.devRef .tc main_v20) = _
  after_results_simp
  unfold hnK scaled recip mdeg deg nsum srcCol
  rfl

theorem W1_main_v21 : W1 m ρ c (Proc.devRef .tc main_v21) = shapeCast S1x64 (m ((c : Thread nD τ).loc main_arg5)) shapeCasts_S64_S1x64 := by
  show StableHlo.after hostOps0 (W0 m ρ c) (Proc.devRef .tc main_v21) = _
  after_results
  try rfl

/-! ## After the first launch -/

theorem W2_main_arg1 : W2 m ρ c (Proc.devRef .tc main_arg1) = (m ((c : Thread nD τ).loc main_arg1)) :=
  (W2_of_ne m ρ c main_arg1 (by decide)).trans (W1_main_arg1 m ρ c)
theorem W2_main_arg2 : W2 m ρ c (Proc.devRef .tc main_arg2) = (m ((c : Thread nD τ).loc main_arg2)) :=
  (W2_of_ne m ρ c main_arg2 (by decide)).trans (W1_main_arg2 m ρ c)
theorem W2_main_arg6 : W2 m ρ c (Proc.devRef .tc main_arg6) = (m ((c : Thread nD τ).loc main_arg6)) :=
  (W2_of_ne m ρ c main_arg6 (by decide)).trans (W1_main_arg6 m ρ c)
theorem W2_main_arg7 : W2 m ρ c (Proc.devRef .tc main_arg7) = (m ((c : Thread nD τ).loc main_arg7)) :=
  (W2_of_ne m ρ c main_arg7 (by decide)).trans (W1_main_arg7 m ρ c)
theorem W2_main_arg8 : W2 m ρ c (Proc.devRef .tc main_arg8) = (m ((c : Thread nD τ).loc main_arg8)) :=
  (W2_of_ne m ρ c main_arg8 (by decide)).trans (W1_main_arg8 m ρ c)
theorem W2_main_arg9 : W2 m ρ c (Proc.devRef .tc main_arg9) = (m ((c : Thread nD τ).loc main_arg9)) :=
  (W2_of_ne m ρ c main_arg9 (by decide)).trans (W1_main_arg9 m ρ c)
theorem W2_main_arg10 : W2 m ρ c (Proc.devRef .tc main_arg10) = (m ((c : Thread nD τ).loc main_arg10)) :=
  (W2_of_ne m ρ c main_arg10 (by decide)).trans (W1_main_arg10 m ρ c)
theorem W2_main_arg11 : W2 m ρ c (Proc.devRef .tc main_arg11) = (m ((c : Thread nD τ).loc main_arg11)) :=
  (W2_of_ne m ρ c main_arg11 (by decide)).trans (W1_main_arg11 m ρ c)
theorem W2_main_v7 : W2 m ρ c (Proc.devRef .tc main_v7) = recip (m ((c : Thread nD τ).loc main_arg2)) :=
  (W2_of_ne m ρ c main_v7 (by decide)).trans (W1_main_v7 m ρ c)

/-- The first launch leaves layer 1 of the arguments. -/
theorem W2_main_v22 : W2 m ρ c (Proc.devRef .tc main_v22) = K1 m c := by
  refine (W2_arr m ρ c 5).trans ((final0 (V1 m ρ) c).trans ?_)
  unfold G0 K1
  show layer (n := 100000) (d := 64) true (W1 m ρ c (Proc.devRef .tc main_arg0)) (W1 m ρ c (Proc.devRef .tc main_v20))
      (W1 m ρ c (Proc.devRef .tc main_arg3)) (W1 m ρ c (Proc.devRef .tc main_arg4))
      (fun q => (W1 m ρ c (Proc.devRef .tc main_v21) : S1x64.Idx → EReal) (ix2 (0 : Fin 1) q)) = _
  rw [W1_main_arg0, W1_main_v20, W1_main_arg3, W1_main_arg4, W1_main_v21, bias_row]

/-! ## Before the second launch -/

theorem W3_main_arg1 : W3 m ρ c (Proc.devRef .tc main_arg1) = (m ((c : Thread nD τ).loc main_arg1)) := by
  show StableHlo.after hostOps1 (W2 m ρ c) (Proc.devRef .tc main_arg1) = _
  after_results
  exact W2_main_arg1 m ρ c

theorem W3_main_arg2 : W3 m ρ c (Proc.devRef .tc main_arg2) = (m ((c : Thread nD τ).loc main_arg2)) := by
  show StableHlo.after hostOps1 (W2 m ρ c) (Proc.devRef .tc main_arg2) = _
  after_results
  exact W2_main_arg2 m ρ c

theorem W3_main_arg6 : W3 m ρ c (Proc.devRef .tc main_arg6) = (m ((c : Thread nD τ).loc main_arg6)) := by
  show StableHlo.after hostOps1 (W2 m ρ c) (Proc.devRef .tc main_arg6) = _
  after_results
  exact W2_main_arg6 m ρ c

theorem W3_main_arg7 : W3 m ρ c (Proc.devRef .tc main_arg7) = (m ((c : Thread nD τ).loc main_arg7)) := by
  show StableHlo.after hostOps1 (W2 m ρ c) (Proc.devRef .tc main_arg7) = _
  after_results
  exact W2_main_arg7 m ρ c

theorem W3_main_arg9 : W3 m ρ c (Proc.devRef .tc main_arg9) = (m ((c : Thread nD τ).loc main_arg9)) := by
  show StableHlo.after hostOps1 (W2 m ρ c) (Proc.devRef .tc main_arg9) = _
  after_results
  exact W2_main_arg9 m ρ c

theorem W3_main_arg10 : W3 m ρ c (Proc.devRef .tc main_arg10) = (m ((c : Thread nD τ).loc main_arg10)) := by
  show StableHlo.after hostOps1 (W2 m ρ c) (Proc.devRef .tc main_arg10) = _
  after_results
  exact W2_main_arg10 m ρ c

theorem W3_main_arg11 : W3 m ρ c (Proc.devRef .tc main_arg11) = (m ((c : Thread nD τ).loc main_arg11)) := by
  show StableHlo.after hostOps1 (W2 m ρ c) (Proc.devRef .tc main_arg11) = _
  after_results
  exact W2_main_arg11 m ρ c

theorem W3_main_v7 : W3 m ρ c (Proc.devRef .tc main_v7) = recip (m ((c : Thread nD τ).loc main_arg2)) := by
  show StableHlo.after hostOps1 (W2 m ρ c) (Proc.devRef .tc main_v7) = _
  after_results
  exact W2_main_v7 m ρ c

theorem W3_main_v22 : W3 m ρ c (Proc.devRef .tc main_v22) = K1 m c := by
  show StableHlo.after hostOps1 (W2 m ρ c) (Proc.devRef .tc main_v22) = _
  after_results
  exact W2_main_v22 m ρ c

theorem W3_main_v35 : W3 m ρ c (Proc.devRef .tc main_v35) = hnK (K1 m c) (m ((c : Thread nD τ).loc main_arg1)) (m ((c : Thread nD τ).loc main_arg2)) := by
  show StableHlo.after hostOps1 (W2 m ρ c) (Proc.devRef .tc main_v35) = _
  after_results_simp
  rw [W2_main_v22, W2_main_arg1, W2_main_arg2, W2_main_v7]
  unfold hnK scaled nsum srcCol
  rfl
theorem W3_main_v36 : W3 m ρ c (Proc.devRef .tc main_v36) = shapeCast S1x64 (m ((c : Thread nD τ).loc main_arg8)) shapeCasts_S64_S1x64 := by
  show StableHlo.after hostOps1 (W2 m ρ c) (Proc.devRef .tc main_v36) = _
  after_results
  rw [W2_main_arg8]
  rfl

/-! ## After the second launch -/

theorem W4_main_arg1 : W4 m ρ c (Proc.devRef .tc main_arg1) = (m ((c : Thread nD τ).loc main_arg1)) :=
  (W4_of_ne m ρ c main_arg1 (by decide)).trans (W3_main_arg1 m ρ c)
theorem W4_main_arg2 : W4 m ρ c (Proc.devRef .tc main_arg2) = (m ((c : Thread nD τ).loc main_arg2)) :=
  (W4_of_ne m ρ c main_arg2 (by decide)).trans (W3_main_arg2 m ρ c)
theorem W4_main_arg9 : W4 m ρ c (Proc.devRef .tc main_arg9) = (m ((c : Thread nD τ).loc main_arg9)) :=
  (W4_of_ne m ρ c main_arg9 (by decide)).trans (W3_main_arg9 m ρ c)
theorem W4_main_arg10 : W4 m ρ c (Proc.devRef .tc main_arg10) = (m ((c : Thread nD τ).loc main_arg10)) :=
  (W4_of_ne m ρ c main_arg10 (by decide)).trans (W3_main_arg10 m ρ c)
theorem W4_main_arg11 : W4 m ρ c (Proc.devRef .tc main_arg11) = (m ((c : Thread nD τ).loc main_arg11)) :=
  (W4_of_ne m ρ c main_arg11 (by decide)).trans (W3_main_arg11 m ρ c)
theorem W4_main_v7 : W4 m ρ c (Proc.devRef .tc main_v7) = recip (m ((c : Thread nD τ).loc main_arg2)) :=
  (W4_of_ne m ρ c main_v7 (by decide)).trans (W3_main_v7 m ρ c)

/-- The second launch leaves layer 2. -/
theorem W4_main_v37 : W4 m ρ c (Proc.devRef .tc main_v37) = K2 m c := by
  refine (W4_arr m ρ c 5).trans ((final1 (V3 m ρ) c).trans ?_)
  unfold G1 K2
  show layer (n := 100000) (d := 64) true (W3 m ρ c (Proc.devRef .tc main_v22)) (W3 m ρ c (Proc.devRef .tc main_v35))
      (W3 m ρ c (Proc.devRef .tc main_arg6)) (W3 m ρ c (Proc.devRef .tc main_arg7))
      (fun q => (W3 m ρ c (Proc.devRef .tc main_v36) : S1x64.Idx → EReal) (ix2 (0 : Fin 1) q)) = _
  rw [W3_main_v22, W3_main_v35, W3_main_arg6, W3_main_arg7, W3_main_v36, bias_row]

/-! ## Before the third launch -/

theorem W5_main_arg9 : W5 m ρ c (Proc.devRef .tc main_arg9) = (m ((c : Thread nD τ).loc main_arg9)) := by
  show StableHlo.after hostOps2 (W4 m ρ c) (Proc.devRef .tc main_arg9) = _
  after_results
  exact W4_main_arg9 m ρ c

theorem W5_main_arg10 : W5 m ρ c (Proc.devRef .tc main_arg10) = (m ((c : Thread nD τ).loc main_arg10)) := by
  show StableHlo.after hostOps2 (W4 m ρ c) (Proc.devRef .tc main_arg10) = _
  after_results
  exact W4_main_arg10 m ρ c

theorem W5_main_v37 : W5 m ρ c (Proc.devRef .tc main_v37) = K2 m c := by
  show StableHlo.after hostOps2 (W4 m ρ c) (Proc.devRef .tc main_v37) = _
  after_results
  exact W4_main_v37 m ρ c

theorem W5_main_v50 : W5 m ρ c (Proc.devRef .tc main_v50) = hnK (K2 m c) (m ((c : Thread nD τ).loc main_arg1)) (m ((c : Thread nD τ).loc main_arg2)) := by
  show StableHlo.after hostOps2 (W4 m ρ c) (Proc.devRef .tc main_v50) = _
  after_results_simp
  rw [W4_main_v37, W4_main_arg1, W4_main_arg2, W4_main_v7]
  unfold hnK scaled nsum srcCol
  rfl
theorem W5_main_v51 : W5 m ρ c (Proc.devRef .tc main_v51) = shapeCast S1x64 (m ((c : Thread nD τ).loc main_arg11)) shapeCasts_S64_S1x64 := by
  show StableHlo.after hostOps2 (W4 m ρ c) (Proc.devRef .tc main_v51) = _
  after_results
  rw [W4_main_arg11]
  rfl

/-! ## After the third launch: the result -/

/-- The third launch leaves layer 3: the network's result. -/
theorem W6_main_v52 : W6 m ρ c (Proc.devRef .tc main_v52) = K3 m c := by
  refine (W6_arr m ρ c 5).trans ((final2 (V5 m ρ) c).trans ?_)
  unfold G2 K3
  show layer (n := 100000) (d := 64) false (W5 m ρ c (Proc.devRef .tc main_v37)) (W5 m ρ c (Proc.devRef .tc main_v50))
      (W5 m ρ c (Proc.devRef .tc main_arg9)) (W5 m ρ c (Proc.devRef .tc main_arg10))
      (fun q => (W5 m ρ c (Proc.devRef .tc main_v51) : S1x64.Idx → EReal) (ix2 (0 : Fin 1) q)) = _
  rw [W5_main_v37, W5_main_v50, W5_main_arg9, W5_main_arg10, W5_main_v51, bias_row]

/-- THE KERNEL PROGRAM'S RESULT is the network of the argument arrays, the neighbour mean taken as the product with the
    reciprocal of max(deg, 1). -/
theorem result_eq : W6 m ρ c (Proc.devRef .tc main_v52)
    = net (n := 100000) (d := 64) (fun h => hnK h (m ((c : Thread nD τ).loc main_arg1)) (m ((c : Thread nD τ).loc main_arg2))) (m ((c : Thread nD τ).loc main_arg0))
        (m ((c : Thread nD τ).loc main_arg3)) (m ((c : Thread nD τ).loc main_arg4)) (fun q => ((m ((c : Thread nD τ).loc main_arg5)) : S64.Idx → EReal) (ix1 q))
        (m ((c : Thread nD τ).loc main_arg6)) (m ((c : Thread nD τ).loc main_arg7)) (fun q => ((m ((c : Thread nD τ).loc main_arg8)) : S64.Idx → EReal) (ix1 q))
        (m ((c : Thread nD τ).loc main_arg9)) (m ((c : Thread nD τ).loc main_arg10)) (fun q => ((m ((c : Thread nD τ).loc main_arg11)) : S64.Idx → EReal) (ix1 q)) :=
  W6_main_v52 m ρ c

end Cert.KernelIdeal.Chain

end
-- ==== Proof.LibDotGeneralPlain.lean ====
/-
  The host's matrix product read at an index, over the extended reals, and the product as one function.

  `matProd x w` is the M×N matrix whose entry (p, q) is  Σ_{k < K} x(p, k) · w(k, q).  For the dimension numbers of a
  plain M×K by K×N product, the host's `dot_general` (which accumulates onto zero) is `matProd` of its operands, entry
  by entry; together with the same reading of a kernel's matrix product into the zero accumulator
  (LibMatmulPlain) this is what lets a product computed row block by row block be compared with one whole product.
  Generic in M, K, N and in the operands' formats.
-/
import proofs.«100329_j87024627351878_1_alg».proof.Proof.LibMatmulPlain

noncomputable section

open scoped BigOperators

namespace Cert.LibDotGeneralPlain

open Idealize.ShloMosaic Idealize.ShloMosaic.ValueIdx Cert.LibMatmulPlain

variable {M K N : Nat}

/-- The M×K by K×N matrix product over the extended reals: entry (p, q) is the sum over k of x(p, k) · w(k, q). -/
def matProd (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem matProd_apply (x : (⟨2, ![M, K]⟩ : Shape).Idx → EReal) (w : (⟨2, ![K, N]⟩ : Shape).Idx → EReal) (p : Fin M) (q : Fin N) :
    matProd x w (ix2 p q) = ∑ k : Fin K, x (ix2 p k) * w (ix2 k q) := rfl

/-- THE HOST'S PRODUCT AT AN ENTRY: `dot_general` with plain dimension numbers is at `(p, q)` the sum over the
    contracted axis of the operands' products, whatever the precision and the schedule key. -/
theorem dotGeneral_plain_apply {φ₁ φ₂ : FTy} (D : DotDims ⟨2, ![M, K]⟩ ⟨2, ![K, N]⟩ ⟨2, ![M, N]⟩)
    (hD : D = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral D prec sched lhs rhs (ix2 p q) = ∑ k : Fin K, lhs (ix2 p k) * rhs (ix2 k q) := by
  subst hD
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

/-- The host's whole product is `matProd` of its operands. -/
theorem dotGeneral_plain_eq {φ₁ φ₂ : FTy} (D : DotDims ⟨2, ![M, K]⟩ ⟨2, ![K, N]⟩ ⟨2, ![M, N]⟩)
    (hD : D = DotDims.plain M K N) (prec : Option ContractPrecision) (sched : HostSchedule)
    (lhs : FVec Ideal ⟨2, ![M, K]⟩ φ₁) (rhs : FVec Ideal ⟨2, ![K, N]⟩ φ₂) :
    FloatOps.dotGeneral D prec sched lhs rhs = matProd lhs rhs := by
  funext i
  obtain ⟨p, q, rfl⟩ : ∃ (p : Fin M) (q : Fin N), i = ix2 p q := ⟨i 0, i 1, eq_ix2 i⟩
  rw [dotGeneral_plain_apply D hD, matProd_apply]

end Cert.LibDotGeneralPlain

end
-- ==== Proof.LibHostBroadcast.lean ====
/-
  Host broadcasts of a column, of a row and of a scalar, read at an index given by coordinates.

  `broadcast_in_dim` moves no data. A column [a, 1] broadcast over b columns has, at (p, c), the column's entry (p, 0);
  a row [1, b] broadcast over a rows has, at (p, c), the row's entry (0, c); a vector [b] placed as the row [1, b] has,
  at (u, c), the vector's entry c; a scalar broadcast to any shape has the scalar everywhere. Composed: a vector [a]
  kept as a column and spread over the columns reads its entry p at (p, c), a vector [b] placed as a row and spread
  over the rows reads its entry c. Generic in the extents; the axis maps are passed with their values.
-/
import Idealize.ShloMosaic.Lib.Pipeline.Value
import Idealize.ShloMosaic.Lib.ValueIdx

namespace Cert.LibHostBroadcast

open Idealize.ShloMosaic Idealize.ShloMosaic.ValueIdx

variable {α : Type}

/-- An [a, 1] column broadcast (axes kept in place) over b columns reads, at (p, c), the column at (p, 0). -/
theorem bcast_a1_ab_apply {a b : ℕ} (dims : Fin (⟨2, ![a, 1]⟩ : Shape).rank → Fin (⟨2, ![a, b]⟩ : Shape).rank)
    (hd0 : dims ⟨0, Nat.succ_pos 1⟩ = ⟨0, Nat.succ_pos 1⟩)
    (h : (⟨2, ![a, 1]⟩ : Shape).BroadcastsInDim ⟨2, ![a, b]⟩ dims) (x : (⟨2, ![a, 1]⟩ : Shape).Idx → α)
    (p : Fin a) (c : Fin b) : broadcastInDim ⟨2, ![a, b]⟩ dims h x (ix2 p c) = x (ix2 p (0 : Fin 1)) := by
  refine broadcastInDim_apply dims h x (ix2 p c) (ix2 p (0 : Fin 1)) fun ax => ?_
  match ax with
  | ⟨0, _⟩ =>
    show p.val = if a = 1 then 0 else (ix2 p c (dims ⟨0, Nat.succ_pos 1⟩)).val
    rw [hd0]
    show p.val = if a = 1 then 0 else p.val
    split
    · have := p.isLt; omega
    · rfl
  | ⟨1, _⟩ => rfl

/-- A [1, b] row broadcast (axes kept in place) over a rows reads, at (p, c), the row at (0, c). -/
theorem bcast_1b_ab_apply {a b : ℕ} (dims : Fin (⟨2, ![1, b]⟩ : Shape).rank → Fin (⟨2, ![a, b]⟩ : Shape).rank)
    (hd1 : dims ⟨1, Nat.lt_succ_self 1⟩ = ⟨1, Nat.lt_succ_self 1⟩)
    (h : (⟨2, ![1, b]⟩ : Shape).BroadcastsInDim ⟨2, ![a, b]⟩ dims) (x : (⟨2, ![1, b]⟩ : Shape).Idx → α)
    (p : Fin a) (c : Fin b) : broadcastInDim ⟨2, ![a, b]⟩ dims h x (ix2 p c) = x (ix2 (0 : Fin 1) c) := by
  refine broadcastInDim_apply dims h x (ix2 p c) (ix2 (0 : Fin 1) c) fun ax => ?_
  match ax with
  | ⟨0, _⟩ => rfl
  | ⟨1, _⟩ =>
    show c.val = if b = 1 then 0 else (ix2 p c (dims ⟨1, Nat.lt_succ_self 1⟩)).val
    rw [hd1]
    show c.val = if b = 1 then 0 else c.val
    split
    · have := c.isLt; omega
    · rfl

/-- A vector [b] placed along axis 1 of a [1, b] row reads, at (u, c), the vector at c. -/
theorem bcast_b_1b_apply {b : ℕ} (dims : Fin (⟨1, ![b]⟩ : Shape).rank → Fin (⟨2, ![1, b]⟩ : Shape).rank)
    (hd : dims ⟨0, Nat.one_pos⟩ = ⟨1, Nat.lt_succ_self 1⟩)
    (h : (⟨1, ![b]⟩ : Shape).BroadcastsInDim ⟨2, ![1, b]⟩ dims) (x : (⟨1, ![b]⟩ : Shape).Idx → α)
    (u : Fin 1) (c : Fin b) : broadcastInDim ⟨2, ![1, b]⟩ dims h x (ix2 u c) = x (ix1 c) := by
  refine broadcastInDim_apply dims h x (ix2 u c) (ix1 c) fun ax => ?_
  match ax with
  | ⟨0, _⟩ =>
    show c.val = if b = 1 then 0 else (ix2 u c (dims ⟨0, Nat.one_pos⟩)).val
    rw [hd]
    show c.val = if b = 1 then 0 else c.val
    split
    · have := c.isLt; omega
    · rfl

/-- A vector [a] placed along axis 0 of an [a, 1] column reads, at (p, u), the vector at p. -/
theorem bcast_a_a1_apply {a : ℕ} (dims : Fin (⟨1, ![a]⟩ : Shape).rank → Fin (⟨2, ![a, 1]⟩ : Shape).rank)
    (hd : dims ⟨0, Nat.one_pos⟩ = ⟨0, Nat.succ_pos 1⟩)
    (h : (⟨1, ![a]⟩ : Shape).BroadcastsInDim ⟨2, ![a, 1]⟩ dims) (x : (⟨1, ![a]⟩ : Shape).Idx → α)
    (p : Fin a) (u : Fin 1) : broadcastInDim ⟨2, ![a, 1]⟩ dims h x (ix2 p u) = x (ix1 p) := by
  refine broadcastInDim_apply dims h x (ix2 p u) (ix1 p) fun ax => ?_
  match ax with
  | ⟨0, _⟩ =>
    show p.val = if a = 1 then 0 else (ix2 p u (dims ⟨0, Nat.one_pos⟩)).val
    rw [hd]
    show p.val = if a = 1 then 0 else p.val
    split
    · have := p.isLt; omega
    · rfl

/-- A scalar broadcast to any shape is the scalar at every index. -/
theorem bcast_scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun ax => ax.elim0

end Cert.LibHostBroadcast
-- ==== Proof.RefSide.lean ====
/-
  The reference's result as three nested layers.

  The reference computes each layer on the whole arrays: it transposes a weight matrix and takes the host's matrix
  product (entry (r, q) of h·Wᵀ is Σ_k h(r, k)·W(q, k)), adds the two products and the bias (placed as a row and spread
  over the rows), and applies x ↦ (x if x ≥ 0 else c·x) by a comparison and a selection. Entry by entry that is the layer
  of Spec.lean. The neighbour mean of a layer's input h is the quotient of the neighbour sum — a gather of the rows
  h[src] added into the rows dst of a zero array — by max(deg, 1) kept as a column and spread over the columns.
  The generated run states the result as one composed term of the arguments; read from the outside in, it is
  layer 3 of layer 2 of layer 1.
-/
import proofs.«100329_j87024627351878_1_alg».proof.Proof.Gen.ReferenceIdeal.Run
import proofs.«100329_j87024627351878_1_alg».proof.Proof.Spec
import proofs.«100329_j87024627351878_1_alg».proof.Proof.LibDotGeneralPlain
import proofs.«100329_j87024627351878_1_alg».proof.Proof.LibHostBroadcast
import Idealize.ShloMosaic.Lib.ValueLayout
import Idealize.ShloMosaic.Lib.Pipeline.Value

noncomputable section

open scoped BigOperators

namespace Cert.ReferenceIdeal.RefValue

open Idealize.ShloMosaic Idealize.ShloMosaic.TcCoe Idealize.ShloMosaic.ValueIdx Idealize.SL.Sem
open Cert.ReferenceIdeal Cert.ReferenceIdeal.Gen Cert.Sage Cert.LibHostBroadcast

/-- The rows to gather: a negative source index counts from the end (100000 is added to it), kept as a column. -/
def srcCol (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The neighbour sum: the rows h[src] added into the rows dst of a zero array. -/
def nsum (h : FVec Ideal S100000x64 .f32) (src dst : IVec S1600000 32) : FVec Ideal S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 dst)
    (Host.gather gather_S100000x64_S1600000x1_S1600000x64_1_0_n_n_0_1_164 h (srcCol src))

/-- The in-degree: ones added into the entries dst of a zero vector. -/
def deg (dst : IVec S1600000 32) : FVec Ideal S100000 .f32 :=
  Host.scatterAdd scatter_S100000_S1600000x1_S1600000_n_0_0_1
    (broadcastInDim S100000 ![] bcast_S_S100000 (constant S_ .f32 0x00000000#32))
    (broadcastInDim S1600000x1 ![0] bcast_S1600000_S1600000x1_0 dst)
    (broadcastInDim S1600000 ![] bcast_S_S1600000 (constant S_ .f32 0x3F800000#32))

/-- The in-degree raised to at least one. -/
def mdeg (dst : IVec S1600000 32) : FVec Ideal S100000 .f32 :=
  maximumf (deg dst) (broadcastInDim S100000 ![] bcast_S_S100000 (constant S_ .f32 0x3F800000#32))

/-- The neighbour mean as the reference takes it: the neighbour sum divided by max(deg, 1), row by row. -/
def hnR (h : FVec Ideal S100000x64 .f32) (src dst : IVec S1600000 32) : FVec Ideal S100000x64 .f32 :=
  Host.divf (nsum h src dst)
    (broadcastInDim S100000x64 ![0, 1] bcast_S100000x1_S100000x64_0_1
      (broadcastInDim S100000x1 ![0] bcast_S100000_S100000x1_0 (mdeg dst)))

/-- One product of the reference at an entry: h · Wᵀ at (p, q) is Σ_k h(p, k) · W(q, k). -/
theorem ref_prod_entry (x : FVec Ideal S100000x64 .f32) (w : FVec Ideal S64x64 .f32)
    (ht : S64x64.Transposes [1, 0] S64x64) (p : Fin 100000) (q : Fin 64) :
    Host.dotGeneral dot_S100000x64_S64x64_S100000x64_1_0_0_1_n_n none x (transpose S64x64 [1, 0] w ht) (ix2 p q)
      = ∑ k : Fin 64, x (ix2 p k) * w (ix2 q k) := by
  refine (Cert.LibDotGeneralPlain.dotGeneral_plain_apply (M := 100000) (K := 64) (N := 64)
    dot_S100000x64_S64x64_S100000x64_1_0_0_1_n_n rfl none .single _ _ p q).trans ?_
  refine Finset.sum_congr rfl fun k _ => ?_
  rw [transpose_ix2_apply]

/-- A reference layer before its activation, entry by entry. -/
theorem ref_pre_apply (h hn : FVec Ideal S100000x64 .f32) (ws wn : FVec Ideal S64x64 .f32) (b : FVec Ideal S64 .f32)
    (ht : S64x64.Transposes [1, 0] S64x64) (hb1 : S64.BroadcastsInDim S1x64 (![1] : Fin 1 → Fin S1x64.rank))
    (hb2 : S1x64.BroadcastsInDim S100000x64 (![0, 1] : Fin 2 → Fin S100000x64.rank)) (i : S100000x64.Idx) :
    addf (addf (Host.dotGeneral dot_S100000x64_S64x64_S100000x64_1_0_0_1_n_n none h (transpose S64x64 [1, 0] ws ht))
        (Host.dotGeneral dot_S100000x64_S64x64_S100000x64_1_0_0_1_n_n none hn (transpose S64x64 [1, 0] wn ht)))
      (broadcastInDim S100000x64 ![0, 1] hb2 (broadcastInDim S1x64 ![1] hb1 b)) i
    = lin (n := 100000) (d := 64) h hn ws wn (fun q => b (ix1 q)) i := by
  obtain ⟨p, q, rfl⟩ : ∃ (p : Fin 100000) (q : Fin 64), i = ix2 p q := ⟨i 0, i 1, eq_ix2 i⟩
  rw [addf_apply, addf_apply, lin_apply, ref_prod_entry, ref_prod_entry, bcast_1b_ab_apply _ rfl, bcast_b_1b_apply _ rfl]

/-- A reference layer with the leaky unit is the layer of Spec.lean. -/
theorem ref_layer_leaky (h hn : FVec Ideal S100000x64 .f32) (ws wn : FVec Ideal S64x64 .f32) (b : FVec Ideal S64 .f32)
    (ht : S64x64.Transposes [1, 0] S64x64) (hb1 : S64.BroadcastsInDim S1x64 (![1] : Fin 1 → Fin S1x64.rank))
    (hb2 : S1x64.BroadcastsInDim S100000x64 (![0, 1] : Fin 2 → Fin S100000x64.rank))
    (hb0 : S_.BroadcastsInDim S100000x64 (![] : Fin 0 → Fin S100000x64.rank)) :
    select (cmpf .oge
        (addf (addf (Host.dotGeneral dot_S100000x64_S64x64_S100000x64_1_0_0_1_n_n none h (transpose S64x64 [1, 0] ws ht))
          (Host.dotGeneral dot_S100000x64_S64x64_S100000x64_1_0_0_1_n_n none hn (transpose S64x64 [1, 0] wn ht)))
          (broadcastInDim S100000x64 ![0, 1] hb2 (broadcastInDim S1x64 ![1] hb1 b)))
        (broadcastInDim S100000x64 ![] hb0 (constant S_ .f32 0x00000000#32)))
      (addf (addf (Host.dotGeneral dot_S100000x64_S64x64_S100000x64_1_0_0_1_n_n none h (transpose S64x64 [1, 0] ws ht))
          (Host.dotGeneral dot_S100000x64_S64x64_S100000x64_1_0_0_1_n_n none hn (transpose S64x64 [1, 0] wn ht)))
          (broadcastInDim S100000x64 ![0, 1] hb2 (broadcastInDim S1x64 ![1] hb1 b)))
      (mulf (broadcastInDim S100000x64 ![] hb0 (constant S_ .f32 0x3C23D70A#32))
        (addf (addf (Host.dotGeneral dot_S100000x64_S64x64_S100000x64_1_0_0_1_n_n none h (transpose S64x64 [1, 0] ws ht))
          (Host.dotGeneral dot_S100000x64_S64x64_S100000x64_1_0_0_1_n_n none hn (transpose S64x64 [1, 0] wn ht)))
          (broadcastInDim S100000x64 ![0, 1] hb2 (broadcastInDim S1x64 ![1] hb1 b))))
    = layer (n := 100000) (d := 64) true h hn ws wn (fun q => b (ix1 q)) := by
  funext i
  rw [select_apply, cmpf_apply, mulf_apply, bcast_scalar_apply, bcast_scalar_apply, constant_apply, constant_apply,
    ref_pre_apply]
  rfl

/-- A reference layer without activation is the layer of Spec.lean. -/
theorem ref_layer_plain (h hn : FVec Ideal S100000x64 .f32) (ws wn : FVec Ideal S64x64 .f32) (b : FVec Ideal S64 .f32)
    (ht : S64x64.Transposes [1, 0] S64x64) (hb1 : S64.BroadcastsInDim S1x64 (![1] : Fin 1 → Fin S1x64.rank))
    (hb2 : S1x64.BroadcastsInDim S100000x64 (![0, 1] : Fin 2 → Fin S100000x64.rank)) :
    addf (addf (Host.dotGeneral dot_S100000x64_S64x64_S100000x64_1_0_0_1_n_n none h (transpose S64x64 [1, 0] ws ht))
        (Host.dotGeneral dot_S100000x64_S64x64_S100000x64_1_0_0_1_n_n none hn (transpose S64x64 [1, 0] wn ht)))
      (broadcastInDim S100000x64 ![0, 1] hb2 (broadcastInDim S1x64 ![1] hb1 b))
    = layer (n := 100000) (d := 64) false h hn ws wn (fun q => b (ix1 q)) := by
  funext i
  rw [ref_pre_apply]
  rfl

set_option maxRecDepth 8192 in
/-- THE REFERENCE'S RESULT is the network of the argument arrays, with the mean taken by division. -/
theorem result_eq (m : (ℓ : Loc nD τ sig) → Buf (Elt Ideal) ℓ) (c : Dev nD) :
    Cert.ReferenceIdeal.Value.res_main_v90 (F := Ideal) m c
      = net (n := 100000) (d := 64)
          (fun h => hnR h (m ((c.tc : Thread nD τ).loc main_arg1)) (m ((c.tc : Thread nD τ).loc main_arg2)))
          (m ((c.tc : Thread nD τ).loc main_arg0))
          (m ((c.tc : Thread nD τ).loc main_arg3)) (m ((c.tc : Thread nD τ).loc main_arg4))
          (fun q => (m ((c.tc : Thread nD τ).loc main_arg5) : S64.Idx → EReal) (ix1 q))
          (m ((c.tc : Thread nD τ).loc main_arg6)) (m ((c.tc : Thread nD τ).loc main_arg7))
          (fun q => (m ((c.tc : Thread nD τ).loc main_arg8) : S64.Idx → EReal) (ix1 q))
          (m ((c.tc : Thread nD τ).loc main_arg9)) (m ((c.tc : Thread nD τ).loc main_arg10))
          (fun q => (m ((c.tc : Thread nD τ).loc main_arg11) : S64.Idx → EReal) (ix1 q)) := by
  unfold Cert.ReferenceIdeal.Value.res_main_v90
  rw [ref_layer_plain, ref_layer_leaky, ref_layer_leaky]
  rfl

end Cert.ReferenceIdeal.RefValue

end
-- ==== Proof.Bridge.lean ====
/-
  The two programs take the neighbour mean of the same sums, one by a product, one by a quotient.

  Both programs gather the rows h[src] and add them into the rows dst of a zero array, and both count the in-degree by
  adding ones into the entries dst of a zero vector and raise it to at least one: the same host operations on the same
  operands, the two programs' records of the gather's and the scatters' axes listing the same axes. The kernel program
  multiplies row n of the sum by 1 / max(deg(n), 1); the reference divides it by max(deg(n), 1). Entry by entry these are
  the two sides of `mul_recip_eq_div`.
-/
import proofs.«100329_j87024627351878_1_alg».proof.Proof.KernelChain
import proofs.«100329_j87024627351878_1_alg».proof.Proof.RefSide
import proofs.«100329_j87024627351878_1_alg».proof.Proof.LibHostBroadcast

set_option maxRecDepth 16384

noncomputable section

namespace Cert.Proof.Bridge

open Idealize.ShloMosaic Idealize.ShloMosaic.ValueIdx Cert.Sage Cert.LibHostBroadcast

/-- The two programs' neighbour sums are one function: the same gather and scatter of the same operands (their records of
    the axes list the same axes). -/
theorem nsum_eq (h : FVec Ideal Cert.KernelIdeal.S100000x64 .f32) (src dst : IVec Cert.KernelIdeal.S1600000 32) :
    Cert.KernelIdeal.Chain.nsum h src dst = Cert.ReferenceIdeal.RefValue.nsum h src dst := rfl

/-- So are their in-degrees. -/
theorem deg_eq (dst : IVec Cert.KernelIdeal.S1600000 32) :
    Cert.KernelIdeal.Chain.deg dst = Cert.ReferenceIdeal.RefValue.deg dst := rfl

open Cert.KernelIdeal in
/-- Row by row, a sum A times the reciprocal of max(d, 1) is A divided by max(d, 1): for any arrays A and d, the
    reciprocal and the maximum kept as columns and spread over the columns. -/
theorem scaled_eq_div (A : FVec Ideal S100000x64 .f32) (d : FVec Ideal S100000 .f32)
    (h0 : S_.BroadcastsInDim S100000 (![] : Fin 0 → Fin S100000.rank))
    (h1 : S100000.BroadcastsInDim S100000x1 (![0] : Fin 1 → Fin S100000x1.rank))
    (h2 : S100000x1.BroadcastsInDim S100000x64 (![0, 1] : Fin 2 → Fin S100000x64.rank)) :
    mulf A (broadcastInDim S100000x64 ![0, 1] h2 (broadcastInDim S100000x1 ![0] h1
      (Host.divf (broadcastInDim S100000 ![] h0 (constant S_ .f32 0x3F800000#32))
        (maximumf d (broadcastInDim S100000 ![] h0 (constant S_ .f32 0x3F800000#32))))))
    = Host.divf A (broadcastInDim S100000x64 ![0, 1] h2 (broadcastInDim S100000x1 ![0] h1
        (maximumf d (broadcastInDim S100000 ![] h0 (constant S_ .f32 0x3F800000#32))))) := by
  funext i
  obtain ⟨p, q, rfl⟩ : ∃ (p : Fin 100000) (q : Fin 64), i = ix2 p q := ⟨i 0, i 1, eq_ix2 i⟩
  simp only [Host.divf, mulf_apply, Ideal.hostDivf_def]
  rw [bcast_a1_ab_apply _ rfl, bcast_a_a1_apply _ rfl, bcast_a1_ab_apply _ rfl, bcast_a_a1_apply _ rfl]
  simp only [maximumf_apply, bcast_scalar_apply, constant_apply]
  exact mul_recip_eq_div _ _

/-- The neighbour mean by the reciprocal is the neighbour mean by the quotient. -/
theorem hn_eq (h : FVec Ideal Cert.KernelIdeal.S100000x64 .f32) (src dst : IVec Cert.KernelIdeal.S1600000 32) :
    Cert.KernelIdeal.Chain.hnK h src dst = Cert.ReferenceIdeal.RefValue.hnR h src dst := by
  unfold Cert.KernelIdeal.Chain.hnK Cert.KernelIdeal.Chain.scaled Cert.KernelIdeal.Chain.recip Cert.KernelIdeal.Chain.mdeg
    Cert.ReferenceIdeal.RefValue.hnR Cert.ReferenceIdeal.RefValue.mdeg
  rw [nsum_eq, deg_eq]
  generalize Cert.ReferenceIdeal.RefValue.nsum h src dst = A
  generalize Cert.ReferenceIdeal.RefValue.deg dst = d
  exact scaled_eq_div A d _ _ _

end Cert.Proof.Bridge

end
-- ==== Proof.lean ====
/-
  GraphSAGE with mean aggregation, three layers: a kernel program against its plain array reference.

  Both programs compute, from node features x (100000 × 64), edge lists src and dst (1600000 each) and three layers'
  weights and biases, the same network: each layer takes the current features h and their neighbour mean — the rows
  h[src] summed into the rows dst, row n divided by max(deg(n), 1) — to  act(h·Wselfᵀ + mean·Wneighᵀ + b),  with a leaky
  unit on the first two layers and none on the last.

  The kernel program does the gathering and summing with host operations and each layer's dense part in a launch that
  walks the rows 5000 at a time; it multiplies by the reciprocal 1 / max(deg, 1), computed once, where the reference
  divides by max(deg, 1). At the ideal instance a change of float format is the identity, a matrix product on the
  matrix unit and the host's are the same sums, and a product with the reciprocal of a number that is at least one is
  the quotient by it, on every extended real. So both runs end with the network of the arguments (KernelChain.lean,
  RefSide.lean), the two neighbour means equal (Bridge.lean). No finiteness of the inputs is used.

  The ideal pass rewrote nothing in the kernel, so there is nothing to preserve. The frames are the programs' runs with
  the results dropped.
-/
import proofs.«100329_j87024627351878_1_alg».proof.Defs
import proofs.«100329_j87024627351878_1_alg».proof.Proof.Gen.Kernel
import proofs.«100329_j87024627351878_1_alg».proof.Proof.KernelFrameP
import proofs.«100329_j87024627351878_1_alg».proof.Proof.Gen.KernelIdeal
import proofs.«100329_j87024627351878_1_alg».proof.Proof.KernelRun
import proofs.«100329_j87024627351878_1_alg».proof.Proof.KernelChain
import proofs.«100329_j87024627351878_1_alg».proof.Proof.Gen.ReferenceIdeal
import proofs.«100329_j87024627351878_1_alg».proof.Proof.Gen.ReferenceIdeal.Run
import proofs.«100329_j87024627351878_1_alg».proof.Proof.RefSide
import proofs.«100329_j87024627351878_1_alg».proof.Proof.Bridge
import proofs.«100329_j87024627351878_1_alg».proof.Proof.Gen.Pre_finite_inputs
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.GenP.frame m ρ

/-- So does the idealized kernel program. -/
theorem frame_kernelIdeal : Cert.frame_KernelIdeal := fun m ρ _ => Cert.KernelIdeal.GenP.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel. -/
theorem preserves : Cert.preserves_Kernel_KernelIdeal := trivial

/-- From memories agreeing on the arguments both programs end with the network of the arguments: the kernel program's
    result is the network with the mean taken by the reciprocal, the reference's the network with the mean taken by the
    quotient, and the two means are one function. -/
theorem algebraic : Cert.algebraic_KernelIdeal_ReferenceIdeal := by
  intro m ρ m' ρ' _ hagree
  refine ⟨fun c => Cert.KernelIdeal.GenP.W6 m ρ c (Proc.devRef .tc Cert.KernelIdeal.main_v52),
    Cert.KernelIdeal.Run.run_value m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11⟩ := hagree c
  show Cert.ReferenceIdeal.Value.res_main_v90 m' c
    = Cert.KernelIdeal.GenP.W6 m ρ c (Proc.devRef .tc Cert.KernelIdeal.main_v52)
  rw [Cert.ReferenceIdeal.RefValue.result_eq m' c, Cert.KernelIdeal.Chain.result_eq m ρ c,
    a0, a1, a2, a3, a4, a5, a6, a7, a8, a9, a10, a11]
  simp only [Cert.Proof.Bridge.hn_eq]

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, preserves, algebraic⟩

end Cert.Proof

end
